-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v11)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v11) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v35) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x1024x512 : Shape := ⟨3, ![8, 1024, 512]⟩
abbrev S512x512 : Shape := ⟨2, ![512, 512]⟩
abbrev S512 : Shape := ⟨1, ![512]⟩
abbrev S_ : Shape := ⟨0, ![]⟩

class Facts : Prop where
  bcast_S_S8x1024x512 : S_.BroadcastsInDim S8x1024x512 (![] : Fin 0 → Fin S8x1024x512.rank)
  reducesTo_S8x1024x512_S_d0_1_2 : S8x1024x512.ReducesTo [0, 1, 2] S_
  h_S_ : 0 < S_.numel
  bcast_S_S512x512 : S_.BroadcastsInDim S512x512 (![] : Fin 0 → Fin S512x512.rank)
  reducesTo_S512x512_S_d0_1 : S512x512.ReducesTo [0, 1] S_
  bcast_S_S512 : S_.BroadcastsInDim S512 (![] : Fin 0 → Fin S512.rank)
  reducesTo_S512_S_d0 : S512.ReducesTo [0] S_

variable [Facts]

def fn_part1 {F : FTy → Type} [FloatOps F] (main_arg4 : FVec F S512x512 .f32) (main_arg5 : FVec F S512x512 .f32) (main_arg6 : FVec F S512 .f32) (main_v13 : IVec S_ 1) (main_v16 : IVec S512x512 1) : IVec S_ 1 :=
  let main_c_5 : IVec S_ 1 := constantI S_ 1 1#1
  let main_v17 : IVec S_ 1 := (fun x v => Host.reduce IntOp.andi x v reducesTo_S512x512_S_d0_1 h_S_) main_v16 main_c_5
  let main_v18 : IVec S_ 1 := andi main_v13 main_v17
  let main_v19 : FVec F S512x512 .f32 := Host.absf main_arg4
  let main_cst_6 : FVec F S_ .f32 := constant S_ .f32 0x7F800000#32
  let main_v20 : FVec F S512x512 .f32 := broadcastInDim S512x512 ![] bcast_S_S512x512 main_cst_6
  let main_v21 : IVec S512x512 1 := cmpf .olt main_v19 main_v20
  let main_c_7 : IVec S_ 1 := constantI S_ 1 1#1
  let main_v22 : IVec S_ 1 := (fun x v => Host.reduce IntOp.andi x v reducesTo_S512x512_S_d0_1 h_S_) main_v21 main_c_7
  let main_v23 : IVec S_ 1 := andi main_v18 main_v22
  let main_v24 : FVec F S512x512 .f32 := Host.absf main_arg5
  let main_cst_8 : FVec F S_ .f32 := constant S_ .f32 0x7F800000#32
  let main_v25 : FVec F S512x512 .f32 := broadcastInDim S512x512 ![] bcast_S_S512x512 main_cst_8
  let main_v26 : IVec S512x512 1 := cmpf .olt main_v24 main_v25
  let main_c_9 : IVec S_ 1 := constantI S_ 1 1#1
  let main_v27 : IVec S_ 1 := (fun x v => Host.reduce IntOp.andi x v reducesTo_S512x512_S_d0_1 h_S_) main_v26 main_c_9
  let main_v28 : IVec S_ 1 := andi main_v23 main_v27
  let main_v29 : FVec F S512 .f32 := Host.absf main_arg6
  let main_cst_10 : FVec F S_ .f32 := constant S_ .f32 0x7F800000#32
  let main_v30 : FVec F S512 .f32 := broadcastInDim S512 ![] bcast_S_S512 main_cst_10
  let main_v31 : IVec S512 1 := cmpf .olt main_v29 main_v30
  let main_c_11 : IVec S_ 1 := constantI S_ 1 1#1
  let main_v32 : IVec S_ 1 := (fun x v => Host.reduce IntOp.andi x v reducesTo_S512_S_d0 h_S_) main_v31 main_c_11
  let main_v33 : IVec S_ 1 := andi main_v28 main_v32
  main_v33

def fn {F : FTy → Type} [FloatOps F] (main_arg0 : FVec F S8x1024x512 .f32) (main_arg1 : FVec F S8x1024x512 .f32) (main_arg2 : FVec F S512x512 .f32) (main_arg3 : FVec F S512x512 .f32) (main_arg4 : FVec F S512x512 .f32) (main_arg5 : FVec F S512x512 .f32) (main_arg6 : FVec F S512 .f32) : IVec S_ 1 :=
  let main_v0 : FVec F S8x1024x512 .f32 := Host.absf main_arg0
  let main_cst : FVec F S_ .f32 := constant S_ .f32 0x7F800000#32
  let main_v1 : FVec F S8x1024x512 .f32 := broadcastInDim S8x1024x512 ![] bcast_S_S8x1024x512 main_cst
  let main_v2 : IVec S8x1024x512 1 := cmpf .olt main_v0 main_v1
  let main_c : IVec S_ 1 := constantI S_ 1 1#1
  let main_v3 : IVec S_ 1 := (fun x v => Host.reduce IntOp.andi x v reducesTo_S8x1024x512_S_d0_1_2 h_S_) main_v2 main_c
  let main_v4 : FVec F S8x1024x512 .f32 := Host.absf main_arg1
  let main_cst_0 : FVec F S_ .f32 := constant S_ .f32 0x7F800000#32
  let main_v5 : FVec F S8x1024x512 .f32 := broadcastInDim S8x1024x512 ![] bcast_S_S8x1024x512 main_cst_0
  let main_v6 : IVec S8x1024x512 1 := cmpf .olt main_v4 main_v5
  let main_c_1 : IVec S_ 1 := constantI S_ 1 1#1
  let main_v7 : IVec S_ 1 := (fun x v => Host.reduce IntOp.andi x v reducesTo_S8x1024x512_S_d0_1_2 h_S_) main_v6 main_c_1
  let main_v8 : IVec S_ 1 := andi main_v3 main_v7
  let main_v9 : FVec F S512x512 .f32 := Host.absf main_arg2
  let main_cst_2 : FVec F S_ .f32 := constant S_ .f32 0x7F800000#32
  let main_v10 : FVec F S512x512 .f32 := broadcastInDim S512x512 ![] bcast_S_S512x512 main_cst_2
  let main_v11 : IVec S512x512 1 := cmpf .olt main_v9 main_v10
  let main_c_3 : IVec S_ 1 := constantI S_ 1 1#1
  let main_v12 : IVec S_ 1 := (fun x v => Host.reduce IntOp.andi x v reducesTo_S512x512_S_d0_1 h_S_) main_v11 main_c_3
  let main_v13 : IVec S_ 1 := andi main_v8 main_v12
  let main_v14 : FVec F S512x512 .f32 := Host.absf main_arg3
  let main_cst_4 : FVec F S_ .f32 := constant S_ .f32 0x7F800000#32
  let main_v15 : FVec F S512x512 .f32 := broadcastInDim S512x512 ![] bcast_S_S512x512 main_cst_4
  let main_v16 : IVec S512x512 1 := cmpf .olt main_v14 main_v15
  fn_part1 (F := F) main_arg4 main_arg5 main_arg6 main_v13 main_v16
-- ==== Kernel.lean ====
abbrev S8x1024x512 : Shape := ⟨3, ![8, 1024, 512]⟩
abbrev S512x512 : Shape := ⟨2, ![512, 512]⟩
abbrev S512 : Shape := ⟨1, ![512]⟩
abbrev S1x1024x512 : Shape := ⟨3, ![1, 1024, 512]⟩
abbrev S1024x512 : Shape := ⟨2, ![1024, 512]⟩
abbrev S8x1024x8x64 : Shape := ⟨4, ![8, 1024, 8, 64]⟩
abbrev S8x8x1024x64 : Shape := ⟨4, ![8, 8, 1024, 64]⟩
abbrev S1x1x1024x64 : Shape := ⟨4, ![1, 1, 1024, 64]⟩
abbrev S1024x64 : Shape := ⟨2, ![1024, 64]⟩
abbrev S64x1024 : Shape := ⟨2, ![64, 1024]⟩
abbrev S1024x1024 : Shape := ⟨2, ![1024, 1024]⟩
abbrev S1024 : Shape := ⟨1, ![1024]⟩
abbrev S1x1024 : Shape := ⟨2, ![1, 1024]⟩
abbrev S1024x1 : Shape := ⟨2, ![1024, 1]⟩
abbrev S1x512 : Shape := ⟨2, ![1, 512]⟩

abbrev nBuf : Space → Nat
  | .hbm => 21
  | .vmem => 27
  | .smem => 0
  | _ => 0

abbrev bufTy : (tb : Table) → Fin (tcTables nBuf tb) → BufTy
  | .hbm, ⟨0, _⟩ => ⟨S8x1024x512, .f32⟩
  | .hbm, ⟨1, _⟩ => ⟨S8x1024x512, .f32⟩
  | .hbm, ⟨2, _⟩ => ⟨S512x512, .f32⟩
  | .hbm, ⟨3, _⟩ => ⟨S512x512, .f32⟩
  | .hbm, ⟨4, _⟩ => ⟨S512x512, .f32⟩
  | .hbm, ⟨5, _⟩ => ⟨S512x512, .f32⟩
  | .hbm, ⟨6, _⟩ => ⟨S512, .f32⟩
  | .hbm, ⟨7, _⟩ => ⟨S8x1024x512, .f32⟩
  | .hbm, ⟨8, _⟩ => ⟨S8x1024x512, .f32⟩
  | .hbm, ⟨9, _⟩ => ⟨S8x1024x512, .f32⟩
  | .hbm, ⟨10, _⟩ => ⟨S8x1024x8x64, .f32⟩
  | .hbm, ⟨11, _⟩ => ⟨S8x8x1024x64, .f32⟩
  | .hbm, ⟨12, _⟩ => ⟨S8x1024x8x64, .f32⟩
  | .hbm, ⟨13, _⟩ => ⟨S8x8x1024x64, .f32⟩
  | .hbm, ⟨14, _⟩ => ⟨S8x1024x8x64, .f32⟩
  | .hbm, ⟨15, _⟩ => ⟨S8x8x1024x64, .f32⟩
  | .hbm, ⟨16, _⟩ => ⟨S8x8x1024x64, .f32⟩
  | .hbm, ⟨17, _⟩ => ⟨S8x1024x8x64, .f32⟩
  | .hbm, ⟨18, _⟩ => ⟨S8x1024x512, .f32⟩
  | .hbm, ⟨19, _⟩ => ⟨S1x512, .f32⟩
  | .hbm, ⟨20, _⟩ => ⟨S8x1024x512, .f32⟩
  | .local _ .vmem, ⟨0, _⟩ => ⟨S1x1024x512, .f32⟩
  | .local _ .vmem, ⟨1, _⟩ => ⟨S1x1024x512, .f32⟩
  | .local _ .vmem, ⟨2, _⟩ => ⟨S1x1024x512, .f32⟩
  | .local _ .vmem, ⟨3, _⟩ => ⟨S1x1024x512, .f32⟩
  | .local _ .vmem, ⟨4, _⟩ => ⟨S512x512, .f32⟩
  | .local _ .vmem, ⟨5, _⟩ => ⟨S512x512, .f32⟩
  | .local _ .vmem, ⟨6, _⟩ => ⟨S512x512, .f32⟩
  | .local _ .vmem, ⟨7, _⟩ => ⟨S1x1024x512, .f32⟩
  | .local _ .vmem, ⟨8, _⟩ => ⟨S1x1024x512, .f32⟩
  | .local _ .vmem, ⟨9, _⟩ => ⟨S1x1024x512, .f32⟩
  | .local _ .vmem, ⟨10, _⟩ => ⟨S1x1024x512, .f32⟩
  | .local _ .vmem, ⟨11, _⟩ => ⟨S1x1024x512, .f32⟩
  | .local _ .vmem, ⟨12, _⟩ => ⟨S1x1024x512, .f32⟩
  | .local _ .vmem, ⟨13, _⟩ => ⟨S1x1x1024x64, .f32⟩
  | .local _ .vmem, ⟨14, _⟩ => ⟨S1x1x1024x64, .f32⟩
  | .local _ .vmem, ⟨15, _⟩ => ⟨S1x1x1024x64, .f32⟩
  | .local _ .vmem, ⟨16, _⟩ => ⟨S1x1x1024x64, .f32⟩
  | .local _ .vmem, ⟨17, _⟩ => ⟨S1x1x1024x64, .f32⟩
  | .local _ .vmem, ⟨18, _⟩ => ⟨S1x1x1024x64, .f32⟩
  | .local _ .vmem, ⟨19, _⟩ => ⟨S1x1x1024x64, .f32⟩
  | .local _ .vmem, ⟨20, _⟩ => ⟨S1x1x1024x64, .f32⟩
  | .local _ .vmem, ⟨21, _⟩ => ⟨S1x1024x512, .f32⟩
  | .local _ .vmem, ⟨22, _⟩ => ⟨S1x1024x512, .f32⟩
  | .local _ .vmem, ⟨23, _⟩ => ⟨S512x512, .f32⟩
  | .local _ .vmem, ⟨24, _⟩ => ⟨S1x512, .f32⟩
  | .local _ .vmem, ⟨25, _⟩ => ⟨S1x1024x512, .f32⟩
  | .local _ .vmem, ⟨26, _⟩ => ⟨S1x1024x512, .f32⟩
  | _, _ => ⟨S8x1024x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | _, _ => false

abbrev semScoped : Fin 0 → Bool
  | ⟨_, h⟩ => absurd h (Nat.not_lt_zero _)

abbrev dmaSemScoped : Fin 27 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | _ => false

abbrev sig : RefSig :=
  ofTc nBuf bufTy 0 27 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0_0 : Ref sig .tc := ⟨.hbm, 7, rfl⟩
abbrev main_v0_1 : Ref sig .tc := ⟨.hbm, 8, rfl⟩
abbrev main_v0_2 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc1_stg0_0 : Ref sig .tc := ⟨.vmem, 13, rfl⟩
abbrev cc1_stg0_1 : Ref sig .tc := ⟨.vmem, 14, rfl⟩
abbrev cc1_stg1_0 : Ref sig .tc := ⟨.vmem, 15, rfl⟩
abbrev cc1_stg1_1 : Ref sig .tc := ⟨.vmem, 16, rfl⟩
abbrev cc1_stg2_0 : Ref sig .tc := ⟨.vmem, 17, rfl⟩
abbrev cc1_stg2_1 : Ref sig .tc := ⟨.vmem, 18, rfl⟩
abbrev cc1_stg3_0 : Ref sig .tc := ⟨.vmem, 19, rfl⟩
abbrev cc1_stg3_1 : Ref sig .tc := ⟨.vmem, 20, rfl⟩
abbrev cc2_stg0_0 : Ref sig .tc := ⟨.vmem, 21, rfl⟩
abbrev cc2_stg0_1 : Ref sig .tc := ⟨.vmem, 22, rfl⟩
abbrev cc2_stg1_0 : Ref sig .tc := ⟨.vmem, 23, rfl⟩
abbrev cc2_stg2_0 : Ref sig .tc := ⟨.vmem, 24, rfl⟩
abbrev cc2_stg3_0 : Ref sig .tc := ⟨.vmem, 25, rfl⟩
abbrev cc2_stg3_1 : Ref sig .tc := ⟨.vmem, 26, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc0_sem6_0 : DmaSem sig := 9
abbrev cc0_sem6_1 : DmaSem sig := 10
abbrev cc0_sem7_0 : DmaSem sig := 11
abbrev cc0_sem7_1 : DmaSem sig := 12
abbrev cc1_sem0_0 : DmaSem sig := 13
abbrev cc1_sem0_1 : DmaSem sig := 14
abbrev cc1_sem1_0 : DmaSem sig := 15
abbrev cc1_sem1_1 : DmaSem sig := 16
abbrev cc1_sem2_0 : DmaSem sig := 17
abbrev cc1_sem2_1 : DmaSem sig := 18
abbrev cc1_sem3_0 : DmaSem sig := 19
abbrev cc1_sem3_1 : DmaSem sig := 20
abbrev cc2_sem0_0 : DmaSem sig := 21
abbrev cc2_sem0_1 : DmaSem sig := 22
abbrev cc2_sem1_0 : DmaSem sig := 23
abbrev cc2_sem2_0 : DmaSem sig := 24
abbrev cc2_sem3_0 : DmaSem sig := 25
abbrev cc2_sem3_1 : DmaSem sig := 26

abbrev nD : Nat := 1
abbrev τ : Topo := Topo.v7x

variable {F : FTy → Type} [FloatOps F]

abbrev grid0 : Pipeline.Grid := ⟨1, ![8], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x1024x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1024x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S512x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S512x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S512x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S1x1024x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x1024x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x1024x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev grid1 : Pipeline.Grid := ⟨2, ![8, 8], ![false, false]⟩

def cc1_transform_0 (i : grid1.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc1_transform_1 (i : grid1.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc1_transform_2 (i : grid1.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc1_transform_3 (i : grid1.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

abbrev stage1_0 : Fin 2 → Memref sig .tc .vmem S1x1x1024x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S1x1x1024x64 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, true]

abbrev stage1_2 : Fin 2 → Memref sig .tc .vmem S1x1x1024x64 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true]

abbrev stage1_3 : Fin 2 → Memref sig .tc .vmem S1x1x1024x64 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true]

abbrev grid2 : Pipeline.Grid := ⟨1, ![8], ![false]⟩

def cc2_transform_0 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage2_0 : Fin 2 → Memref sig .tc .vmem S1x1024x512 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S512x512 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x512 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S1x1024x512 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

class Facts₀ : Prop where
  inb_S1x1024x512_S1x1024x512_0_0_0 : ∀ a, (![0, 0, 0] : Fin 3 → Nat) a + S1x1024x512.size a ≤ S1x1024x512.size a
  h_S1x1024x512 : 0 < S1x1024x512.numel
  shapeCasts_S1x1024x512_S1024x512 : S1x1024x512.ShapeCasts S1024x512
  bitsLt_bf16_f32 : FTy.bits .bf16 < FTy.bits .f32
  inb_S512x512_S512x512_0_0 : ∀ a, (![0, 0] : Fin 2 → Nat) a + S512x512.size a ≤ S512x512.size a
  h_S512x512 : 0 < S512x512.numel
  shapeCasts_S1024x512_S1x1024x512 : S1024x512.ShapeCasts S1x1024x512
  shapeCasts_S8x1024x512_S8x1024x8x64 : S8x1024x512.ShapeCasts S8x1024x8x64
  transposes_S8x1024x8x64_S8x8x1024x64_0_2_1_3 : S8x1024x8x64.Transposes [0, 2, 1, 3] S8x8x1024x64
  inb_S1x1x1024x64_S1x1x1024x64_0_0_0_0 : ∀ a, (![0, 0, 0, 0] : Fin 4 → Nat) a + S1x1x1024x64.size a ≤ S1x1x1024x64.size a
  h_S1x1x1024x64 : 0 < S1x1x1024x64.numel
  shapeCasts_S1x1x1024x64_S1024x64 : S1x1x1024x64.ShapeCasts S1024x64
  transposes_S1024x64_p1_0_S64x1024 : S1024x64.Transposes [1, 0] S64x1024
  reduces_S1024x1024_S1024 : S1024x1024.Reduces [0] S1024
  shapeCasts_S1024_S1x1024 : S1024.ShapeCasts S1x1024
  broadcasts_S1x1024_S1024x1024 : S1x1024.Broadcasts S1024x1024
  reduces_S1024x1024_S1024_2 : S1024x1024.Reduces [1] S1024
  shapeCasts_S1024_S1024x1 : S1024.ShapeCasts S1024x1
  broadcasts_S1024x1_S1024x1024 : S1024x1.Broadcasts S1024x1024
  shapeCasts_S1024x64_S1x1x1024x64 : S1024x64.ShapeCasts S1x1x1024x64
  transposes_S8x8x1024x64_S8x1024x8x64_0_2_1_3 : S8x8x1024x64.Transposes [0, 2, 1, 3] S8x1024x8x64
  shapeCasts_S8x1024x8x64_S8x1024x512 : S8x1024x8x64.ShapeCasts S8x1024x512
  shapeCasts_S512_S1x512 : S512.ShapeCasts S1x512
  inb_S1x512_S1x512_0_0 : ∀ a, (![0, 0] : Fin 2 → Nat) a + S1x512.size a ≤ S1x512.size a
  h_S1x512 : 0 < S1x512.numel
  shapeCasts_S1x512_S1x512 : S1x512.ShapeCasts S1x512
  broadcasts_S1x512_S1024x512 : S1x512.Broadcasts S1024x512
  dot_S1024x512_S512x512_S1024x512_1_1_0_0_n_n_wf : DotDims.WF S1024x512 S512x512 S1024x512 [1] [1] [0] [0] [] []
  dot_S1024x64_S64x1024_S1024x1024_1_0_0_1_n_n_wf : DotDims.WF S1024x64 S64x1024 S1024x1024 [1] [0] [0] [1] [] []
  dot_S1024x1024_S1024x64_S1024x64_1_0_0_1_n_n_wf : DotDims.WF S1024x1024 S1024x64 S1024x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x1024x512.size a ≤ S8x1024x512.size a
  hwx0_0 : ∀ i : grid0.Coords, EltTy.bits .f32 = 32 ∨ (Rect.block (s := S8x1024x512) S1x1024x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x1024x512.size a ≤ S8x1024x512.size a
  hwx0_1 : ∀ i : grid0.Coords, EltTy.bits .f32 = 32 ∨ (Rect.block (s := S8x1024x512) S1x1024x512.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S512x512.size a ≤ S512x512.size a
  hwx0_2 : ∀ i : grid0.Coords, EltTy.bits .f32 = 32 ∨ (Rect.block (s := S512x512) S512x512.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S512x512.size a ≤ S512x512.size a
  hwx0_3 : ∀ i : grid0.Coords, EltTy.bits .f32 = 32 ∨ (Rect.block (s := S512x512) S512x512.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S512x512.size a ≤ S512x512.size a
  hwx0_4 : ∀ i : grid0.Coords, EltTy.bits .f32 = 32 ∨ (Rect.block (s := S512x512) S512x512.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x1024x512.size a ≤ S8x1024x512.size a
  hwx0_5 : ∀ i : grid0.Coords, EltTy.bits .f32 = 32 ∨ (Rect.block (s := S8x1024x512) S1x1024x512.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S1x1024x512.size a ≤ S8x1024x512.size a
  hwx0_6 : ∀ i : grid0.Coords, EltTy.bits .f32 = 32 ∨ (Rect.block (s := S8x1024x512) S1x1024x512.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S1x1024x512.size a ≤ S8x1024x512.size a
  hwx0_7 : ∀ i : grid0.Coords, EltTy.bits .f32 = 32 ∨ (Rect.block (s := S8x1024x512) S1x1024x512.size (cc0_transform_7 i) (hinb0_7 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1x1x1024x64.size a ≤ S8x8x1024x64.size a
  hwx1_0 : ∀ i : grid1.Coords, EltTy.bits .f32 = 32 ∨ (Rect.block (s := S8x8x1024x64) S1x1x1024x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1x1x1024x64.size a ≤ S8x8x1024x64.size a
  hwx1_1 : ∀ i : grid1.Coords, EltTy.bits .f32 = 32 ∨ (Rect.block (s := S8x8x1024x64) S1x1x1024x64.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1x1x1024x64.size a ≤ S8x8x1024x64.size a
  hwx1_2 : ∀ i : grid1.Coords, EltTy.bits .f32 = 32 ∨ (Rect.block (s := S8x8x1024x64) S1x1x1024x64.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1x1x1024x64.size a ≤ S8x8x1024x64.size a
  hwx1_3 : ∀ i : grid1.Coords, EltTy.bits .f32 = 32 ∨ (Rect.block (s := S8x8x1024x64) S1x1x1024x64.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S1x1024x512.size a ≤ S8x1024x512.size a
  hwx2_0 : ∀ i : grid2.Coords, EltTy.bits .f32 = 32 ∨ (Rect.block (s := S8x1024x512) S1x1024x512.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S512x512.size a ≤ S512x512.size a
  hwx2_1 : ∀ i : grid2.Coords, EltTy.bits .f32 = 32 ∨ (Rect.block (s := S512x512) S512x512.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x512.size a ≤ S1x512.size a
  hwx2_2 : ∀ i : grid2.Coords, EltTy.bits .f32 = 32 ∨ (Rect.block (s := S1x512) S1x512.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S1x1024x512.size a ≤ S8x1024x512.size a
  hwx2_3 : ∀ i : grid2.Coords, EltTy.bits .f32 = 32 ∨ (Rect.block (s := S8x1024x512) S1x1024x512.size (cc2_transform_3 i) (hinb2_3 i)).WholeWords (EltTy.packing .f32)

variable [Facts₀]

def dot_S1024x512_S512x512_S1024x512_1_1_0_0_n_n : DotDims S1024x512 S512x512 S1024x512 where
  lhsContracting := [1]
  rhsContracting := [1]
  lhsNonContracting := [0]
  rhsNonContracting := [0]
  lhsBatch := []
  rhsBatch := []
  wf := dot_S1024x512_S512x512_S1024x512_1_1_0_0_n_n_wf
def dot_S1024x64_S64x1024_S1024x1024_1_0_0_1_n_n : DotDims S1024x64 S64x1024 S1024x1024 where
  lhsContracting := [1]
  rhsContracting := [0]
  lhsNonContracting := [0]
  rhsNonContracting := [1]
  lhsBatch := []
  rhsBatch := []
  wf := dot_S1024x64_S64x1024_S1024x1024_1_0_0_1_n_n_wf
def dot_S1024x1024_S1024x64_S1024x64_1_0_0_1_n_n : DotDims S1024x1024 S1024x64 S1024x64 where
  lhsContracting := [1]
  rhsContracting := [0]
  lhsNonContracting := [0]
  rhsNonContracting := [1]
  lhsBatch := []
  rhsBatch := []
  wf := dot_S1024x1024_S1024x64_S1024x64_1_0_0_1_n_n_wf

abbrev win0_0 : Pipeline.Window sig grid0 :=
  Pipeline.Window.ofSpec (Memref.whole main_arg0) S1x1024x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1x1024x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S512x512.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S512x512.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S512x512.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v0_0) S1x1024x512.size cc0_transform_5 reads0_5 true false 2 stage0_5 sem0_5
    hrank0 hreads0_5 hinb0_5 nbuf0_5 (Memref.isWhole_whole _) hwx0_5 hstage0_5

abbrev win0_6 : Pipeline.Window sig grid0 :=
  Pipeline.Window.ofSpec (Memref.whole main_v0_1) S1x1024x512.size cc0_transform_6 reads0_6 true false 2 stage0_6 sem0_6
    hrank0 hreads0_6 hinb0_6 nbuf0_6 (Memref.isWhole_whole _) hwx0_6 hstage0_6

abbrev win0_7 : Pipeline.Window sig grid0 :=
  Pipeline.Window.ofSpec (Memref.whole main_v0_2) S1x1024x512.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

abbrev win1_0 : Pipeline.Window sig grid1 :=
  Pipeline.Window.ofSpec (Memref.whole main_v2) S1x1x1024x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v4) S1x1x1024x64.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v6) S1x1x1024x64.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v7) S1x1x1024x64.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v9) S1x1024x512.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg5) S512x512.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v10) S1x512.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v11) S1x1024x512.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

class Facts : Prop extends Facts₀ where

variable [Facts]
-- ==== ReferenceIdeal.lean ====
abbrev S8x1024x512 : Shape := ⟨3, ![8, 1024, 512]⟩
abbrev S512x512 : Shape := ⟨2, ![512, 512]⟩
abbrev S512 : Shape := ⟨1, ![512]⟩
abbrev S8x1024x8x64 : Shape := ⟨4, ![8, 1024, 8, 64]⟩
abbrev S8x8x1024x64 : Shape := ⟨4, ![8, 8, 1024, 64]⟩
abbrev S8x8x1024x1024 : Shape := ⟨4, ![8, 8, 1024, 1024]⟩
abbrev S_ : Shape := ⟨0, ![]⟩
abbrev S8x8x1024 : Shape := ⟨3, ![8, 8, 1024]⟩
abbrev S8x8x1x1024 : Shape := ⟨4, ![8, 8, 1, 1024]⟩
abbrev S8x8x1024x1 : Shape := ⟨4, ![8, 8, 1024, 1]⟩
abbrev S1x1x512 : Shape := ⟨3, ![1, 1, 512]⟩

abbrev nBuf : Space → Nat
  | .hbm => 49
  | .vmem => 0
  | .smem => 0
  | _ => 0

abbrev bufTy : (tb : Table) → Fin (tcTables nBuf tb) → BufTy
  | .hbm, ⟨0, _⟩ => ⟨S8x1024x512, .f32⟩
  | .hbm, ⟨1, _⟩ => ⟨S8x1024x512, .f32⟩
  | .hbm, ⟨2, _⟩ => ⟨S512x512, .f32⟩
  | .hbm, ⟨3, _⟩ => ⟨S512x512, .f32⟩
  | .hbm, ⟨4, _⟩ => ⟨S512x512, .f32⟩
  | .hbm, ⟨5, _⟩ => ⟨S512x512, .f32⟩
  | .hbm, ⟨6, _⟩ => ⟨S512, .f32⟩
  | .hbm, ⟨7, _⟩ => ⟨S8x1024x512, .f32⟩
  | .hbm, ⟨8, _⟩ => ⟨S8x1024x8x64, .f32⟩
  | .hbm, ⟨9, _⟩ => ⟨S8x8x1024x64, .f32⟩
  | .hbm, ⟨10, _⟩ => ⟨S8x1024x512, .f32⟩
  | .hbm, ⟨11, _⟩ => ⟨S8x1024x8x64, .f32⟩
  | .hbm, ⟨12, _⟩ => ⟨S8x8x1024x64, .f32⟩
  | .hbm, ⟨13, _⟩ => ⟨S8x1024x512, .f32⟩
  | .hbm, ⟨14, _⟩ => ⟨S8x1024x8x64, .f32⟩
  | .hbm, ⟨15, _⟩ => ⟨S8x8x1024x64, .f32⟩
  | .hbm, ⟨16, _⟩ => ⟨S8x8x1024x1024, .f32⟩
  | .hbm, ⟨17, _⟩ => ⟨S_, .f32⟩
  | .hbm, ⟨18, _⟩ => ⟨S8x8x1024x1024, .f32⟩
  | .hbm, ⟨19, _⟩ => ⟨S8x8x1024x1024, .f32⟩
  | .hbm, ⟨20, _⟩ => ⟨S_, .f32⟩
  | .hbm, ⟨21, _⟩ => ⟨S8x8x1024, .f32⟩
  | .hbm, ⟨22, _⟩ => ⟨S_, .f32⟩
  | .hbm, ⟨23, _⟩ => ⟨S8x8x1024, .f32⟩
  | .hbm, ⟨24, _⟩ => ⟨S8x8x1024, .f32⟩
  | .hbm, ⟨25, _⟩ => ⟨S8x8x1x1024, .f32⟩
  | .hbm, ⟨26, _⟩ => ⟨S8x8x1024x1024, .f32⟩
  | .hbm, ⟨27, _⟩ => ⟨S8x8x1024x1024, .f32⟩
  | .hbm, ⟨28, _⟩ => ⟨S8x8x1024x1024, .f32⟩
  | .hbm, ⟨29, _⟩ => ⟨S_, .f32⟩
  | .hbm, ⟨30, _⟩ => ⟨S8x8x1024, .f32⟩
  | .hbm, ⟨31, _⟩ => ⟨S8x8x1x1024, .f32⟩
  | .hbm, ⟨32, _⟩ => ⟨S8x8x1024x1024, .f32⟩
  | .hbm, ⟨33, _⟩ => ⟨S8x8x1024x1024, .f32⟩
  | .hbm, ⟨34, _⟩ => ⟨S_, .f32⟩
  | .hbm, ⟨35, _⟩ => ⟨S8x8x1024, .f32⟩
  | .hbm, ⟨36, _⟩ => ⟨S8x8x1024x1, .f32⟩
  | .hbm, ⟨37, _⟩ => ⟨S_, .f32⟩
  | .hbm, ⟨38, _⟩ => ⟨S8x8x1024x1, .f32⟩
  | .hbm, ⟨39, _⟩ => ⟨S8x8x1024x1, .f32⟩
  | .hbm, ⟨40, _⟩ => ⟨S8x8x1024x1024, .f32⟩
  | .hbm, ⟨41, _⟩ => ⟨S8x8x1024x1024, .f32⟩
  | .hbm, ⟨42, _⟩ => ⟨S8x8x1024x64, .f32⟩
  | .hbm, ⟨43, _⟩ => ⟨S8x1024x8x64, .f32⟩
  | .hbm, ⟨44, _⟩ => ⟨S8x1024x512, .f32⟩
  | .hbm, ⟨45, _⟩ => ⟨S8x1024x512, .f32⟩
  | .hbm, ⟨46, _⟩ => ⟨S1x1x512, .f32⟩
  | .hbm, ⟨47, _⟩ => ⟨S8x1024x512, .f32⟩
  | .hbm, ⟨48, _⟩ => ⟨S8x1024x512, .f32⟩
  | _, _ => ⟨S8x1024x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_cst : Ref sig .tc := ⟨.hbm, 17, rfl⟩
abbrev main_v10 : Ref sig .tc := ⟨.hbm, 18, rfl⟩
abbrev main_v11 : Ref sig .tc := ⟨.hbm, 19, rfl⟩
abbrev main_cst_0 : Ref sig .tc := ⟨.hbm, 20, rfl⟩
abbrev main_v12 : Ref sig .tc := ⟨.hbm, 21, rfl⟩
abbrev main_cst_1 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_cst_2 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_cst_3 : Ref sig .tc := ⟨.hbm, 34, rfl⟩
abbrev main_v23 : Ref sig .tc := ⟨.hbm, 35, rfl⟩
abbrev main_v24 : Ref sig .tc := ⟨.hbm, 36, rfl⟩
abbrev main_cst_4 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩

abbrev nD : Nat := 1
abbrev τ : Topo := Topo.v7x

variable {F : FTy → Type} [FloatOps F]

class Facts₀ : Prop where
  shapeCasts_S8x1024x512_S8x1024x8x64 : S8x1024x512.ShapeCasts S8x1024x8x64
  transposes_S8x1024x8x64_S8x8x1024x64_0_2_1_3 : S8x1024x8x64.Transposes [0, 2, 1, 3] S8x8x1024x64
  bcast_S_S8x8x1024x1024 : S_.BroadcastsInDim S8x8x1024x1024 (![] : Fin 0 → Fin S8x8x1024x1024.rank)
  reducesTo_S8x8x1024x1024_S8x8x1024_d2 : S8x8x1024x1024.ReducesTo [2] S8x8x1024
  h_S_ : 0 < S_.numel
  bcast_S_S8x8x1024 : S_.BroadcastsInDim S8x8x1024 (![] : Fin 0 → Fin S8x8x1024.rank)
  bcast_S8x8x1024_S8x8x1x1024_0_1_3 : S8x8x1024.BroadcastsInDim S8x8x1x1024 (![0, 1, 3] : Fin 3 → Fin S8x8x1x1024.rank)
  bcast_S8x8x1x1024_S8x8x1024x1024_0_1_2_3 : S8x8x1x1024.BroadcastsInDim S8x8x1024x1024 (![0, 1, 2, 3] : Fin 4 → Fin S8x8x1024x1024.rank)
  reducesTo_S8x8x1024x1024_S8x8x1024_d3 : S8x8x1024x1024.ReducesTo [3] S8x8x1024
  bcast_S8x8x1024_S8x8x1024x1_0_1_2 : S8x8x1024.BroadcastsInDim S8x8x1024x1 (![0, 1, 2] : Fin 3 → Fin S8x8x1024x1.rank)
  bcast_S_S8x8x1024x1 : S_.BroadcastsInDim S8x8x1024x1 (![] : Fin 0 → Fin S8x8x1024x1.rank)
  bcast_S8x8x1024x1_S8x8x1024x1024_0_1_2_3 : S8x8x1024x1.BroadcastsInDim S8x8x1024x1024 (![0, 1, 2, 3] : Fin 4 → Fin S8x8x1024x1024.rank)
  transposes_S8x8x1024x64_S8x1024x8x64_0_2_1_3 : S8x8x1024x64.Transposes [0, 2, 1, 3] S8x1024x8x64
  shapeCasts_S8x1024x8x64_S8x1024x512 : S8x1024x8x64.ShapeCasts S8x1024x512
  bcast_S512_S1x1x512_2 : S512.BroadcastsInDim S1x1x512 (![2] : Fin 1 → Fin S1x1x512.rank)
  bcast_S1x1x512_S8x1024x512_0_1_2 : S1x1x512.BroadcastsInDim S8x1024x512 (![0, 1, 2] : Fin 3 → Fin S8x1024x512.rank)
  dot_S8x1024x512_S512x512_S8x1024x512_2_1_01_0_n_n_wf : DotDims.WF S8x1024x512 S512x512 S8x1024x512 [2] [1] [0, 1] [0] [] []
  dot_S8x8x1024x64_S8x8x1024x64_S8x8x1024x1024_3_3_2_2_01_01_wf : DotDims.WF S8x8x1024x64 S8x8x1024x64 S8x8x1024x1024 [3] [3] [2] [2] [0, 1] [0, 1]
  dot_S8x8x1024x1024_S8x8x1024x64_S8x8x1024x64_3_2_2_3_01_01_wf : DotDims.WF S8x8x1024x1024 S8x8x1024x64 S8x8x1024x64 [3] [2] [2] [3] [0, 1] [0, 1]

variable [Facts₀]

def dot_S8x1024x512_S512x512_S8x1024x512_2_1_01_0_n_n : DotDims S8x1024x512 S512x512 S8x1024x512 where
  lhsContracting := [2]
  rhsContracting := [1]
  lhsNonContracting := [0, 1]
  rhsNonContracting := [0]
  lhsBatch := []
  rhsBatch := []
  wf := dot_S8x1024x512_S512x512_S8x1024x512_2_1_01_0_n_n_wf
def dot_S8x8x1024x64_S8x8x1024x64_S8x8x1024x1024_3_3_2_2_01_01 : DotDims S8x8x1024x64 S8x8x1024x64 S8x8x1024x1024 where
  lhsContracting := [3]
  rhsContracting := [3]
  lhsNonContracting := [2]
  rhsNonContracting := [2]
  lhsBatch := [0, 1]
  rhsBatch := [0, 1]
  wf := dot_S8x8x1024x64_S8x8x1024x64_S8x8x1024x1024_3_3_2_2_01_01_wf
def dot_S8x8x1024x1024_S8x8x1024x64_S8x8x1024x64_3_2_2_3_01_01 : DotDims S8x8x1024x1024 S8x8x1024x64 S8x8x1024x64 where
  lhsContracting := [3]
  rhsContracting := [2]
  lhsNonContracting := [2]
  rhsNonContracting := [3]
  lhsBatch := [0, 1]
  rhsBatch := [0, 1]
  wf := dot_S8x8x1024x1024_S8x8x1024x64_S8x8x1024x64_3_2_2_3_01_01_wf

class Facts : Prop extends Facts₀ where

variable [Facts]
-- ==== Proof.KernelRun.lean ====
/-
  The idealized kernel's whole run, with the result named.

  The program is three launches among host reshapes and transposes. Its run is the chain of five segments; after the last one
  every buffer the launches and host operations can see holds the contents the fold of the segments leaves there (`Gen.W5`).
  The frame claim reads only the seven argument buffers off that final state; read here is also the result buffer, so that the
  run's post says which array the program returns: the fold's contents at the result.
-/
import proofs.«131226_j70806830842616_1_alg».proof.Proof.Gen.KernelIdeal.Frame

set_option maxRecDepth 16384

noncomputable section

namespace Cert.KernelRun

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the program terminates without a fault; the result buffer then holds the contents the
    segments' fold leaves at it, and the seven arguments are as launched. -/
theorem run : θ_run defs (onTc (τ := τ) (main (F := F))) ⟨m, fun _ => 0, ρ⟩ (fun r => ∀ c : Dev nD,
      r.2.mem ((c.tc : Thread nD τ).loc main_v11) = W5 m ρ c (Proc.devRef .tc main_v11)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m ρ c b)
    (hfin := fun c s' => by
      iintro ⟨⟨Hh, -⟩, HSI⟩
      unfold StableHlo.held
      imodintro
      iapply (pointsTo_read_all (Pipeline.ucRefs τ sig) (fun b => (((c : Thread nD τ)).1, b)) (W5 m ρ c) s')
      isplitl [Hh] <;> iassumption)
    (hQ := fun s h c =>
      ⟨h c _ (mem_uc main_v11 (by decide)),
       (h c _ (mem_uc main_arg0 (by decide))).trans (W5_main_arg0 m ρ c),
       (h c _ (mem_uc main_arg1 (by decide))).trans (W5_main_arg1 m ρ c),
       (h c _ (mem_uc main_arg2 (by decide))).trans (W5_main_arg2 m ρ c),
       (h c _ (mem_uc main_arg3 (by decide))).trans (W5_main_arg3 m ρ c),
       (h c _ (mem_uc main_arg4 (by decide))).trans (W5_main_arg4 m ρ c),
       (h c _ (mem_uc main_arg5 (by decide))).trans (W5_main_arg5 m ρ c),
       (h c _ (mem_uc main_arg6 (by decide))).trans (W5_main_arg6 m ρ c)⟩)

end Cert.KernelRun

end
-- ==== Proof.Spec.lean ====
/-
  The mathematics of the two programs, stated once over the extended reals.

  Both compute attention whose softmax runs over the QUERY axis and is then renormalised over the key axis:
  three linear maps  q = x·Wqᵀ, k = c·Wkᵀ, v = c·Wvᵀ  (rows of the weight matrices contracted with the feature axis),
  the 512 features split into 8 heads of 64, and per batch and head, with  s i j = (∑ d, q i d · k j d) · 1/8 :
      e i j  = exp (s i j − sup_i' s i' j)            (the column maximum: the supremum over queries)
      a i j  = e i j / ∑ i', e i' j                    (softmax over queries)
      a' i j = a i j / ((∑ j', a i j') + ε)           (renormalised over keys)
      o i d  = ∑ j, a' i j · v j d,
  the heads merged back, and one more linear map with a bias:  out = o·Woᵀ + bo.
  The functions below are these formulas, index by index; nothing here mentions a program.
-/
import Idealize.ShloMosaic.PureOps.Ideal
import Idealize.ShloMosaic.Lib.ValueIdx

noncomputable section

open scoped BigOperators

namespace Cert.Attn

open Idealize.ShloMosaic Idealize.ShloMosaic.ValueIdx

/-- The scale 1/8 = 64^(-1/2), as the float word both programs carry. -/
def scale : EReal := Ideal.ofBits .f32 0x3E000000#32
/-- The ε added to the key-axis sums, as the float word both programs carry. -/
def eps : EReal := Ideal.ofBits .f32 0x33D6BF95#32

/-- A linear map along the last axis: entry (b, n, e) is the inner product of row (b, n) of `x` with row `e` of `w`. -/
def linear (x : (⟨3, ![8, 1024, 512]⟩ : Shape).Idx → EReal) (w : (⟨2, ![512, 512]⟩ : Shape).Idx → EReal) :
    (⟨3, ![8, 1024, 512]⟩ : Shape).Idx → EReal :=
  fun i => ∑ k : Fin 512, x (ix3 (i 0) (i 1) k) * w (ix2 (i 2) k)

/-- The same with a bias row added: entry (b, n, e) is the inner product plus `bo e`. -/
def linearBias (x : (⟨3, ![8, 1024, 512]⟩ : Shape).Idx → EReal) (w : (⟨2, ![512, 512]⟩ : Shape).Idx → EReal)
    (bo : (⟨1, ![512]⟩ : Shape).Idx → EReal) : (⟨3, ![8, 1024, 512]⟩ : Shape).Idx → EReal :=
  fun i => (∑ k : Fin 512, x (ix3 (i 0) (i 1) k) * w (ix2 (i 2) k)) + bo (ix1 (i 2))

section Head
variable (q k v : Fin 1024 → Fin 64 → EReal)

/-- Scaled scores of one head: query `i` against key `j`. -/
def score (i j : Fin 1024) : EReal := (∑ d : Fin 64, q i d * k j d) * scale
/-- The largest score of key `j` over all queries. -/
def colMax (j : Fin 1024) : EReal := (Finset.univ : Finset (Fin 1024)).sup fun i => score q k i j
/-- The exponential of a score shifted by its column maximum. -/
def expo (i j : Fin 1024) : EReal := Ideal.exp (score q k i j - colMax q k j)
/-- The sum of key `j`'s exponentials over all queries. -/
def colSum (j : Fin 1024) : EReal := ∑ i : Fin 1024, expo q k i j
/-- Softmax over the query axis. -/
def soft (i j : Fin 1024) : EReal := Ideal.div (expo q k i j) (colSum q k j)
/-- Query `i`'s softmax weights summed over all keys, plus ε. -/
def rowDen (i : Fin 1024) : EReal := (∑ j : Fin 1024, soft q k i j) + eps
/-- The weights renormalised over the key axis. -/
def weight (i j : Fin 1024) : EReal := Ideal.div (soft q k i j) (rowDen q k i)
/-- One head's output: the weighted sum of the value rows. -/
def headOut (i : Fin 1024) (d : Fin 64) : EReal := ∑ j : Fin 1024, weight q k i j * v j d
end Head

/-- Attention over all batches and heads: entry (b, h, i, d) is head (b, h)'s output at (i, d). -/
def attend (q k v : (⟨4, ![8, 8, 1024, 64]⟩ : Shape).Idx → EReal) : (⟨4, ![8, 8, 1024, 64]⟩ : Shape).Idx → EReal :=
  fun n => headOut (fun i d => q (ix4 (n 0) (n 1) i d)) (fun j d => k (ix4 (n 0) (n 1) j d))
    (fun j d => v (ix4 (n 0) (n 1) j d)) (n 2) (n 3)

end Cert.Attn

end
-- ==== Proof.LibDotRows.lean ====
/-
  A matrix product that contracts the LAST axis of both operands, read at one entry.

  For `x : M × K` and `y : N × K` the product with dimension numbers "contract axis 1 of the left with axis 1 of the right, keep
  axis 0 of each" is the `M × N` array of inner products of ROWS: entry `(p, q)` is `∑ k, x[p, k] · y[q, k]`. Over the extended
  reals, accumulated into the zero array, that is the whole statement (`matmul_rows_apply`); the work is only to identify the
  product's own operand indices — computed from the dimension numbers — with the coordinate pairs `(p, k)` and `(q, k)`, and its
  one-axis contraction index with the coordinate `k`.
-/
import Idealize.ShloMosaic.PureOps.Ideal.Laws
import Idealize.ShloMosaic.Lib.ValueIdx

noncomputable section

open scoped BigOperators

namespace Cert.Lib.DotRows

open Idealize.ShloMosaic Idealize.ShloMosaic.ValueIdx

variable {M K N : Nat}

/-- The left operand's kept axis 0 follows the output's axis 0, whatever the contraction index. -/
theorem lhs_axis0 (i : (⟨2, ![M, N]⟩ : Shape).Idx) (c : (DotDims.transposedRhs M K N).contr.Idx) :
    ((DotDims.transposedRhs M K N).lhsIdx i c 0).val = (i 0).val := by
  unfold DotDims.lhsIdx
  rw [dif_neg (show ¬(0 : Fin (⟨2, ![M, K]⟩ : Shape).rank) ∈ (DotDims.transposedRhs M K N).lhsBatch from List.not_mem_nil),
    dif_pos (show (0 : Fin (⟨2, ![M, K]⟩ : Shape).rank) ∈ (DotDims.transposedRhs M K N).lhsNonContracting from List.mem_cons_self)]
  rfl

/-- The right operand's kept axis 0 follows the output's axis 1. -/
theorem rhs_axis0 (i : (⟨2, ![M, N]⟩ : Shape).Idx) (c : (DotDims.transposedRhs M K N).contr.Idx) :
    ((DotDims.transposedRhs M K N).rhsIdx i c 0).val = (i 1).val := by
  unfold DotDims.rhsIdx
  rw [dif_neg (show ¬(0 : Fin (⟨2, ![N, K]⟩ : Shape).rank) ∈ (DotDims.transposedRhs M K N).rhsBatch from List.not_mem_nil),
    dif_pos (show (0 : Fin (⟨2, ![N, K]⟩ : Shape).rank) ∈ (DotDims.transposedRhs M K N).rhsNonContracting from List.mem_cons_self)]
  rfl

/-- Each operand's contracted axis 1 follows the contraction index's one coordinate. -/
theorem lhs_axis1 (i : (⟨2, ![M, N]⟩ : Shape).Idx) (c : (DotDims.transposedRhs M K N).contr.Idx) :
    ((DotDims.transposedRhs M K N).lhsIdx i c 1).val = (c ⟨0, Nat.zero_lt_one⟩).val :=
  (DotDims.transposedRhs M K N).lhsIdx_val_of_single rfl i c
theorem rhs_axis1 (i : (⟨2, ![M, N]⟩ : Shape).Idx) (c : (DotDims.transposedRhs M K N).contr.Idx) :
    ((DotDims.transposedRhs M K N).rhsIdx i c 1).val = (c ⟨0, Nat.zero_lt_one⟩).val :=
  (DotDims.transposedRhs M K N).rhsIdx_val_of_single rfl i c

/-- So at output entry `(p, q)` and contraction coordinate `k` the left operand is read at `(p, k)` … -/
theorem lhsIdx_rows (p : Fin M) (q : Fin N) (k : Fin K) :
    (DotDims.transposedRhs M K N).lhsIdx (ix2 p q) ((contrEquiv1 (DotDims.transposedRhs M K N) K rfl rfl).symm k) = ix2 p k :=
  funext fun a => Fin.ext (by
    match a with
    | ⟨0, _⟩ => exact lhs_axis0 _ _
    | ⟨1, _⟩ => exact (lhs_axis1 _ _).trans (contrEquiv1_symm_val (DotDims.transposedRhs M K N) K rfl rfl k))

/-- … and the right operand at `(q, k)`. -/
theorem rhsIdx_rows (p : Fin M) (q : Fin N) (k : Fin K) :
    (DotDims.transposedRhs M K N).rhsIdx (ix2 p q) ((contrEquiv1 (DotDims.transposedRhs M K N) K rfl rfl).symm k) = ix2 q k :=
  funext fun a => Fin.ext (by
    match a with
    | ⟨0, _⟩ => exact rhs_axis0 _ _
    | ⟨1, _⟩ => exact (rhs_axis1 _ _).trans (contrEquiv1_symm_val (DotDims.transposedRhs M K N) K rfl rfl k))

/-- THE PRODUCT OF ROWS AT AN ENTRY. Over the extended reals, a matrix product with these dimension numbers (any record `D`
    that spells them: `hD`), accumulated into the zero array, holds at `(p, q)` the inner product of row `p` of the left operand
    and row `q` of the right: `∑ k, x[p, k] · y[q, k]`. -/
theorem matmul_rows_apply {φ₁ φ₂ : FTy} (D : DotDims ⟨2, ![M, K]⟩ ⟨2, ![N, K]⟩ ⟨2, ![M, N]⟩) (hD : D = DotDims.transposedRhs M K N)
    (prec : Option ContractPrecision) (x : FVec Ideal ⟨2, ![M, K]⟩ φ₁) (y : FVec Ideal ⟨2, ![N, K]⟩ φ₂) (p : Fin M) (q : Fin N) :
    FloatOps.matmul D prec x y (constant ⟨2, ![M, N]⟩ .f32 0x00000000#32) (ix2 p q) = ∑ k : Fin K, x (ix2 p k) * y (ix2 q k) := by
  subst hD
  rw [Ideal.matmul_constant_zero_apply, ← Equiv.sum_comp (contrEquiv1 (DotDims.transposedRhs M K N) K rfl rfl).symm]
  refine Finset.sum_congr rfl fun k _ => ?_
  rw [lhsIdx_rows, rhsIdx_rows]

/-- The same for the host's `dot_general`, which has no accumulator. -/
theorem dotGeneral_rows_apply {φ₁ φ₂ : FTy} (D : DotDims ⟨2, ![M, K]⟩ ⟨2, ![N, K]⟩ ⟨2, ![M, N]⟩) (hD : D = DotDims.transposedRhs M K N)
    (prec : Option ContractPrecision) (sched : HostSchedule) (x : FVec Ideal ⟨2, ![M, K]⟩ φ₁) (y : FVec Ideal ⟨2, ![N, K]⟩ φ₂)
    (p : Fin M) (q : Fin N) :
    FloatOps.dotGeneral D prec sched x y (ix2 p q) = ∑ k : Fin K, x (ix2 p k) * y (ix2 q k) := by
  subst hD
  rw [Ideal.dotGeneral_apply, ← Equiv.sum_comp (contrEquiv1 (DotDims.transposedRhs M K N) K rfl rfl).symm]
  refine Finset.sum_congr rfl fun k _ => ?_
  rw [lhsIdx_rows, rhsIdx_rows]

end Cert.Lib.DotRows

end
-- ==== Proof.LibDotCols.lean ====
/-
  The plain matrix product read at one entry.

  For `x : M × K` and `y : K × N` the product with dimension numbers "contract axis 1 of the left with axis 0 of the right, keep
  axis 0 of the left and axis 1 of the right" is the `M × N` array whose entry `(p, q)` is `∑ k, x[p, k] · y[k, q]`. Over the extended
  reals, accumulated into the zero array, that is the whole statement; the work is only to identify the product's own operand
  indices — computed from the dimension numbers — with the coordinate pairs `(p, k)` and `(k, q)`, and its one-axis contraction
  index with the coordinate `k`. (The companion module reads the product that contracts the last axis of both operands.)
-/
import Idealize.ShloMosaic.PureOps.Ideal.Laws
import Idealize.ShloMosaic.Lib.ValueIdx

noncomputable section

open scoped BigOperators

namespace Cert.Lib.DotCols

open Idealize.ShloMosaic Idealize.ShloMosaic.ValueIdx

variable {M K N : Nat}

/-- The left operand's kept axis 0 follows the output's axis 0, whatever the contraction index. -/
theorem lhs_axis0 (i : (⟨2, ![M, N]⟩ : Shape).Idx) (c : (DotDims.plain M K N).contr.Idx) :
    ((DotDims.plain M K N).lhsIdx i c 0).val = (i 0).val := by
  unfold DotDims.lhsIdx
  rw [dif_neg (show ¬(0 : Fin (⟨2, ![M, K]⟩ : Shape).rank) ∈ (DotDims.plain M K N).lhsBatch from List.not_mem_nil),
    dif_pos (show (0 : Fin (⟨2, ![M, K]⟩ : Shape).rank) ∈ (DotDims.plain M K N).lhsNonContracting from List.mem_cons_self)]
  rfl

/-- The right operand's kept axis 1 follows the output's axis 1. -/
theorem rhs_axis1 (i : (⟨2, ![M, N]⟩ : Shape).Idx) (c : (DotDims.plain M K N).contr.Idx) :
    ((DotDims.plain M K N).rhsIdx i c 1).val = (i 1).val := by
  unfold DotDims.rhsIdx
  rw [dif_neg (show ¬(1 : Fin (⟨2, ![K, N]⟩ : Shape).rank) ∈ (DotDims.plain M K N).rhsBatch from List.not_mem_nil),
    dif_pos (show (1 : Fin (⟨2, ![K, N]⟩ : Shape).rank) ∈ (DotDims.plain M K N).rhsNonContracting from List.mem_cons_self)]
  rfl

/-- The left operand's contracted axis 1 and the right operand's contracted axis 0 follow the contraction index's one coordinate. -/
theorem lhs_axis1 (i : (⟨2, ![M, N]⟩ : Shape).Idx) (c : (DotDims.plain M K N).contr.Idx) :
    ((DotDims.plain M K N).lhsIdx i c 1).val = (c ⟨0, Nat.zero_lt_one⟩).val :=
  (DotDims.plain M K N).lhsIdx_val_of_single rfl i c
theorem rhs_axis0 (i : (⟨2, ![M, N]⟩ : Shape).Idx) (c : (DotDims.plain M K N).contr.Idx) :
    ((DotDims.plain M K N).rhsIdx i c 0).val = (c ⟨0, Nat.zero_lt_one⟩).val :=
  (DotDims.plain M K N).rhsIdx_val_of_single rfl i c

/-- So at output entry `(p, q)` and contraction coordinate `k` the left operand is read at `(p, k)` … -/
theorem lhsIdx_cols (p : Fin M) (q : Fin N) (k : Fin K) :
    (DotDims.plain M K N).lhsIdx (ix2 p q) ((contrEquiv1 (DotDims.plain M K N) K rfl rfl).symm k) = ix2 p k :=
  funext fun a => Fin.ext (by
    match a with
    | ⟨0, _⟩ => exact lhs_axis0 _ _
    | ⟨1, _⟩ => exact (lhs_axis1 _ _).trans (contrEquiv1_symm_val (DotDims.plain M K N) K rfl rfl k))

/-- … and the right operand at `(k, q)`. -/
theorem rhsIdx_cols (p : Fin M) (q : Fin N) (k : Fin K) :
    (DotDims.plain M K N).rhsIdx (ix2 p q) ((contrEquiv1 (DotDims.plain M K N) K rfl rfl).symm k) = ix2 k q :=
  funext fun a => Fin.ext (by
    match a with
    | ⟨0, _⟩ => exact (rhs_axis0 _ _).trans (contrEquiv1_symm_val (DotDims.plain M K N) K rfl rfl k)
    | ⟨1, _⟩ => exact rhs_axis1 _ _)

/-- THE PLAIN PRODUCT AT AN ENTRY. Over the extended reals, a matrix product with these dimension numbers (any record `D` that
    spells them: `hD`), accumulated into the zero array, holds at `(p, q)` the sum `∑ k, x[p, k] · y[k, q]`. -/
theorem matmul_cols_apply {φ₁ φ₂ : FTy} (D : DotDims ⟨2, ![M, K]⟩ ⟨2, ![K, N]⟩ ⟨2, ![M, N]⟩) (hD : D = DotDims.plain M K N)
    (prec : Option ContractPrecision) (x : FVec Ideal ⟨2, ![M, K]⟩ φ₁) (y : FVec Ideal ⟨2, ![K, N]⟩ φ₂) (p : Fin M) (q : Fin N) :
    FloatOps.matmul D prec x y (constant ⟨2, ![M, N]⟩ .f32 0x00000000#32) (ix2 p q) = ∑ k : Fin K, x (ix2 p k) * y (ix2 k q) := by
  subst hD
  rw [Ideal.matmul_constant_zero_apply, ← Equiv.sum_comp (contrEquiv1 (DotDims.plain M K N) K rfl rfl).symm]
  refine Finset.sum_congr rfl fun k _ => ?_
  rw [lhsIdx_cols, rhsIdx_cols]

end Cert.Lib.DotCols

end
-- ==== Proof.LibSegSup.lean ====
/-
  The supremum of an extended-real function of the natural numbers over a run of consecutive positions,
  `segSup f a n = sup { f (a + k) | k < n }` (the bottom element when the run is empty), and the one law a
  pooling argument needs of it: a run of `n + n'` positions is its first `n` positions followed by the next
  `n'`, so its supremum is the larger of the two parts' suprema. Only the order structure is used — the supremum
  of a finite family does not depend on how the family is cut or grouped, and holds at the infinities as anywhere
  else. Also: a left fold of `max` from the bottom element over a finite family is that family's supremum, and a
  supremum over `Fin n` is the supremum over the run of `n` positions.
-/
import Mathlib.Data.EReal.Basic
import Mathlib.Order.Interval.Finset.Nat

namespace SegSup

/-- The supremum of `f` over the `n` consecutive positions `a, a + 1, …, a + n - 1`. -/
noncomputable def segSup (f : ℕ → EReal) (a n : ℕ) : EReal := (Finset.range n).sup fun k => f (a + k)

theorem segSup_zero (f : ℕ → EReal) (a : ℕ) : segSup f a 0 = ⊥ := by
  unfold segSup; rw [Finset.range_zero, Finset.sup_empty]

theorem segSup_succ (f : ℕ → EReal) (a n : ℕ) : segSup f a (n + 1) = segSup f a n ⊔ f (a + n) := by
  unfold segSup; rw [Finset.range_add_one, Finset.sup_insert, sup_comm]

/-- A run of `n + n'` positions is a run of `n` followed by a run of `n'`. -/
theorem segSup_add (f : ℕ → EReal) (a n n' : ℕ) : segSup f a (n + n') = segSup f a n ⊔ segSup f (a + n) n' := by
  induction n' with
  | zero => rw [Nat.add_zero, segSup_zero, sup_bot_eq]
  | succ k ih => rw [← Nat.add_assoc, segSup_succ, ih, segSup_succ, sup_assoc, Nat.add_assoc]

/-- Two runs of equal length whose entries agree position by position have one supremum. -/
theorem segSup_congr {f g : ℕ → EReal} {a b n : ℕ} (h : ∀ k, k < n → f (a + k) = g (b + k)) : segSup f a n = segSup g b n := by
  unfold segSup; exact Finset.sup_congr rfl fun k hk => h k (Finset.mem_range.1 hk)

/-- The supremum over `Fin n` of the entries at `a + k` is the supremum over the run. -/
theorem sup_univ_fin (f : ℕ → EReal) (a n : ℕ) : (Finset.univ : Finset (Fin n)).sup (fun k => f (a + k.val)) = segSup f a n := by
  unfold segSup
  apply le_antisymm
  · exact Finset.sup_le fun k _ => Finset.le_sup (f := fun k => f (a + k)) (Finset.mem_range.2 k.isLt)
  · exact Finset.sup_le fun k hk =>
      Finset.le_sup (f := fun k : Fin n => f (a + k.val)) (Finset.mem_univ (⟨k, Finset.mem_range.1 hk⟩ : Fin n))

/-- Folding `max` from the bottom element over a finite family gives its supremum. -/
theorem fold_max_bot {ι : Type*} (s : Finset ι) (g : ι → EReal) : s.fold max ⊥ g = s.sup g := rfl

end SegSup
-- ==== Proof.LibHostMax.lean ====
/-
  A host reduction with a maximum body, started from the bottom element (the pattern of −∞), read at an index over the
  extended reals: reducing the LAST axis of an [n, w] array gives at row `r` the supremum of that row's `w` entries, and
  reducing the last axis of an [n, q, w] array gives at (r, i) the supremum of the `w` entries of group `i` of row `r`. The
  reduction is a fold of `max` over the reduced axis's coordinates in some order; a fold of `max` from the bottom element
  over a finite family is the family's supremum, whatever the order. The same for a lane reduction of an [n, w] vector
  (`multiReduction_rows`), and a vector cast to one column read back (`shapeCast_col_apply`). Also: two arrays of `q` columns and of one column set
  side by side, read at column `j`, give the first array's column `j` when `j < q` and the second's only column otherwise.
-/
import Idealize.ShloMosaic.Lib.ValueIdx
import Idealize.ShloMosaic.Lib.Pipeline.Value
import Idealize.ShloMosaic.PureOps.Ideal.Laws
import proofs.«131226_j70806830842616_1_alg».proof.Proof.LibSegSup

noncomputable section

namespace HostMax

open Idealize.ShloMosaic Idealize.ShloMosaic.ValueIdx SegSup

/-- The pattern of −∞ denotes the bottom element of the extended reals. -/
theorem ofBits_neg_inf : Ideal.ofBits .f32 0xFF800000#32 = (⊥ : EReal) := by
  simp [Ideal.ofBits, Ideal.ieee]

/-- Row `r` of an [n, w] array with coordinate `k` put back on the reduced (last) axis is (r, k). -/
theorem lift_rows {n w : ℕ} (h : (⟨2, ![n, w]⟩ : Shape).Reduces [1] (⟨1, ![n]⟩ : Shape)) (r : Fin n)
    (k : Fin ((⟨2, ![n, w]⟩ : Shape).size 1)) : h.lift (ix1 r) k = ix2 r (⟨k.val, k.isLt⟩ : Fin w) := by
  funext c; apply Fin.ext
  fin_cases c <;> rfl

/-- Group (r, i) of an [n, q, w] array with coordinate `k` put back on the reduced (last) axis is (r, i, k). -/
theorem lift_groups {n q w : ℕ} (h : (⟨3, ![n, q, w]⟩ : Shape).Reduces [2] (⟨2, ![n, q]⟩ : Shape)) (r : Fin n) (i : Fin q)
    (k : Fin ((⟨3, ![n, q, w]⟩ : Shape).size 2)) : h.lift (ix2 r i) k = ix3 r i (⟨k.val, k.isLt⟩ : Fin w) := by
  funext c; apply Fin.ext
  fin_cases c <;> rfl

/-- From −∞ the host's maximum over the last axis of an [n, w] array, at row `r`, is the supremum of the row. -/
theorem reduce_rows {n w : ℕ} (v : FVec Ideal ⟨2, ![n, w]⟩ .f32) (init : (⟨0, ![]⟩ : Shape).Idx → Ideal .f32)
    (hinit : ∀ i, init i = (⊥ : EReal))
    (h' : (⟨2, ![n, w]⟩ : Shape).ReducesTo [1] (⟨1, ![n]⟩ : Shape)) (h : (⟨2, ![n, w]⟩ : Shape).Reduces [1] (⟨1, ![n]⟩ : Shape))
    (hu : 0 < (⟨0, ![]⟩ : Shape).numel) (r : Fin n) :
    Host.reduce FloatOps.maximumf v init h' hu (ix1 r) = (Finset.univ : Finset (Fin w)).sup fun k => v (ix2 r k) := by
  rw [Host.reduce_eq_fold_single FloatOps.maximumf v init h' h hu, hinit]
  have hf : (v ∘ h.lift (ix1 r)) = fun k : Fin w => v (ix2 r k) := funext fun k => congrArg v (lift_rows h r k)
  exact congrArg (fun f => Finset.fold max (⊥ : EReal) f (Finset.univ : Finset (Fin w))) hf

/-- From −∞ the host's maximum over the last axis of an [n, q, w] array, at (r, i), is the supremum of that group. -/
theorem reduce_groups {n q w : ℕ} (v : FVec Ideal ⟨3, ![n, q, w]⟩ .f32) (init : (⟨0, ![]⟩ : Shape).Idx → Ideal .f32)
    (hinit : ∀ i, init i = (⊥ : EReal))
    (h' : (⟨3, ![n, q, w]⟩ : Shape).ReducesTo [2] (⟨2, ![n, q]⟩ : Shape))
    (h : (⟨3, ![n, q, w]⟩ : Shape).Reduces [2] (⟨2, ![n, q]⟩ : Shape))
    (hu : 0 < (⟨0, ![]⟩ : Shape).numel) (r : Fin n) (i : Fin q) :
    Host.reduce FloatOps.maximumf v init h' hu (ix2 r i) = (Finset.univ : Finset (Fin w)).sup fun k => v (ix3 r i k) := by
  rw [Host.reduce_eq_fold_single FloatOps.maximumf v init h' h hu, hinit]
  have hf : (v ∘ h.lift (ix2 r i)) = fun k : Fin w => v (ix3 r i k) := funext fun k => congrArg v (lift_groups h r i k)
  exact congrArg (fun f => Finset.fold max (⊥ : EReal) f (Finset.univ : Finset (Fin w))) hf

/-- From −∞ a lane reduction with a maximum body over the last axis of an [n, w] vector, at row `r`, is the supremum of
    the row: the kernel-side reading of the same fold. -/
theorem multiReduction_rows {n w : ℕ} (P : FVec Ideal ⟨2, ![n, w]⟩ .f32)
    (h : (⟨2, ![n, w]⟩ : Shape).Reduces [1] (⟨1, ![n]⟩ : Shape)) (hφ : FKind.Formats .f32)
    (hacc : (0xFF800000#32 : BitVec FTy.f32.bits) = FKind.maximumf.neutral .f32 hφ) (r : Fin n) :
    multiReduction (F := Ideal) .maximumf [1] (⟨1, ![n]⟩ : Shape) P 0xFF800000#32 h hφ hacc (ix1 r)
      = (Finset.univ : Finset (Fin w)).sup fun k => P (ix2 r k) := by
  refine (Ideal.multiReduction_maximumf_single (φ := .f32) P 0xFF800000#32 h hφ hacc (ix1 r)).trans ?_
  have hf : (P ∘ h.lift (ix1 r)) = fun k : Fin w => P (ix2 r k) := funext fun k => congrArg P (lift_rows h r k)
  have hb : FloatOps.ofBits (F := Ideal) .f32 0xFF800000#32 = (⊥ : EReal) := ofBits_neg_inf
  rw [hb]
  exact congrArg (fun f => Finset.fold max (⊥ : EReal) f (Finset.univ : Finset (Fin w))) hf

/-- A vector of `n` entries cast to one column, read at (r, 0), is entry `r`. -/
theorem shapeCast_col_apply {α : Type} {n : ℕ} (v : (⟨1, ![n]⟩ : Shape).Idx → α)
    (h : (⟨1, ![n]⟩ : Shape).ShapeCasts (⟨2, ![n, 1]⟩ : Shape)) (y : (⟨2, ![n, 1]⟩ : Shape).Idx) (r : Fin n)
    (hy : (y 0).val = r.val) : shapeCast (⟨2, ![n, 1]⟩ : Shape) v h y = v (ix1 r) := by
  refine shapeCast_apply v h y (ix1 r) ?_
  rw [Shape.rowMajor_val_one, Shape.rowMajor_val_two]
  have h1 : (y 1).val < 1 := (y 1).isLt
  show r.val = (y 0).val * 1 + (y 1).val
  omega

/-- An array of `q` columns and an array of one column set side by side: column `j` of the join is the first array's
    column `j` when `j < q`, and otherwise (`j = q`) the second array's only column. -/
theorem join_cols {α : Type} {n q : ℕ} (A : (⟨2, ![n, q]⟩ : Shape).Idx → α) (B : (⟨2, ![n, 1]⟩ : Shape).Idx → α)
    (h : Shape.Concatenates [(⟨2, ![n, q]⟩ : Shape), (⟨2, ![n, 1]⟩ : Shape)] (⟨2, ![n, q + 1]⟩ : Shape) (1 : Fin 2))
    (r : Fin n) (j : Fin (q + 1)) :
    concatenate (⟨2, ![n, q + 1]⟩ : Shape) (1 : Fin 2) [⟨(⟨2, ![n, q]⟩ : Shape), A⟩, ⟨(⟨2, ![n, 1]⟩ : Shape), B⟩] h (ix2 r j)
      = if hj : j.val < q then A (ix2 r ⟨j.val, hj⟩) else B (ix2 r (0 : Fin 1)) := by
  split
  · rename_i hj
    exact concatenate_pair_apply_left (1 : Fin 2) A B h (ix2 r j) rfl (ix2 r ⟨j.val, hj⟩) (fun b => by fin_cases b <;> rfl)
  · rename_i hj
    refine concatenate_pair_apply_right (1 : Fin 2) A B h (ix2 r j) rfl rfl (ix2 r (0 : Fin 1)) (fun b hb => ?_) ?_
    · fin_cases b
      · rfl
      · exact absurd rfl hb
    · show 0 + q = j.val
      have := j.isLt; omega

end HostMax

end
-- ==== Proof.LibLaneCols.lean ====
/-
  Two readings of an [a, b] vector over the extended reals, column by column.

  A lane reduction over the FIRST axis gathers, at column `j`, the `a` entries (0, j), …, (a − 1, j).  With an addition
  body from the neutral accumulator it holds their plain sum; with a maximum body from −∞ it holds their supremum (a
  fold of `max` from the bottom element over a finite family is the family's supremum, in any order).  These are the
  column forms beside the row forms (reductions over the last axis).
-/
import Idealize.ShloMosaic.Lib.ValueIdx
import Idealize.ShloMosaic.Lib.Pipeline.Value
import Idealize.ShloMosaic.PureOps.Ideal.Laws
import proofs.«131226_j70806830842616_1_alg».proof.Proof.LibHostMax

noncomputable section

open scoped BigOperators

namespace LaneCols

open Idealize.ShloMosaic Idealize.ShloMosaic.ValueIdx

/-- Column `j` of an [a, b] array with coordinate `k` put back on the reduced (first) axis is (k, j). -/
theorem lift_cols {a b : ℕ} (h : (⟨2, ![a, b]⟩ : Shape).Reduces [0] (⟨1, ![b]⟩ : Shape)) (j : Fin b)
    (k : Fin ((⟨2, ![a, b]⟩ : Shape).size 0)) : h.lift (ix1 j) k = ix2 (⟨k.val, k.isLt⟩ : Fin a) j := by
  funext c; apply Fin.ext
  fin_cases c <;> rfl

/-- From the neutral accumulator, a lane sum over the first axis of an [a, b] vector, at column `j`, is the sum of the column. -/
theorem multiReduction_add_cols {a b : ℕ} (P : FVec Ideal ⟨2, ![a, b]⟩ .f32) (acc : BitVec FTy.f32.bits)
    (h : (⟨2, ![a, b]⟩ : Shape).Reduces [0] (⟨1, ![b]⟩ : Shape)) (hφ : FKind.Formats .f32)
    (hacc : acc = FKind.add.neutral .f32 hφ) (j : Fin b) :
    multiReduction (F := Ideal) .add [0] (⟨1, ![b]⟩ : Shape) P acc h hφ hacc (ix1 j) = ∑ k : Fin a, P (ix2 k j) := by
  refine (Ideal.multiReduction_add_single (φ := .f32) P acc h hφ hacc (ix1 j)).trans ?_
  have hf : (P ∘ h.lift (ix1 j)) = fun k : Fin a => P (ix2 k j) :=
    funext fun k => congrArg P (lift_cols h j k)
  exact congrArg (fun f => ∑ k : Fin a, f k) hf

/-- From −∞, a lane maximum over the first axis of an [a, b] vector, at column `j`, is the supremum of the column. -/
theorem multiReduction_max_cols {a b : ℕ} (P : FVec Ideal ⟨2, ![a, b]⟩ .f32)
    (h : (⟨2, ![a, b]⟩ : Shape).Reduces [0] (⟨1, ![b]⟩ : Shape)) (hφ : FKind.Formats .f32)
    (hacc : (0xFF800000#32 : BitVec FTy.f32.bits) = FKind.maximumf.neutral .f32 hφ) (j : Fin b) :
    multiReduction (F := Ideal) .maximumf [0] (⟨1, ![b]⟩ : Shape) P 0xFF800000#32 h hφ hacc (ix1 j)
      = (Finset.univ : Finset (Fin a)).sup fun k => P (ix2 k j) := by
  refine (Ideal.multiReduction_maximumf_single (φ := .f32) P 0xFF800000#32 h hφ hacc (ix1 j)).trans ?_
  have hf : (P ∘ h.lift (ix1 j)) = fun k : Fin a => P (ix2 k j) := funext fun k => congrArg P (lift_cols h j k)
  have hb : FloatOps.ofBits (F := Ideal) .f32 0xFF800000#32 = (⊥ : EReal) := HostMax.ofBits_neg_inf
  rw [hb]
  exact congrArg (fun f => Finset.fold max (⊥ : EReal) f (Finset.univ : Finset (Fin a))) hf

end LaneCols

end
-- ==== Proof.LibLaneRows.lean ====
/-
  Two readings of an [n, w] vector over the extended reals, row by row.

  A lane reduction with an addition body over the last axis, from the neutral accumulator, holds at row `r` the plain sum of that
  row's `w` entries: the reduction sums the entries whose index drops to `r`, and those are exactly (r, 0), …, (r, w − 1).
  A one-column array [n, 1] broadcast to [n, w] holds at (r, t) the column's entry of row `r`, whatever `t`.
-/
import Idealize.ShloMosaic.Lib.ValueIdx
import Idealize.ShloMosaic.Lib.Pipeline.Value
import Idealize.ShloMosaic.PureOps.Ideal.Laws
import proofs.«131226_j70806830842616_1_alg».proof.Proof.LibHostMax

noncomputable section

open scoped BigOperators

namespace LaneRows

open Idealize.ShloMosaic Idealize.ShloMosaic.ValueIdx

/-- From the neutral accumulator, a lane sum over the last axis of an [n, w] vector, at row `r`, is the sum of the row. -/
theorem multiReduction_add_rows {n w : ℕ} (P : FVec Ideal ⟨2, ![n, w]⟩ .f32) (acc : BitVec FTy.f32.bits)
    (h : (⟨2, ![n, w]⟩ : Shape).Reduces [1] (⟨1, ![n]⟩ : Shape)) (hφ : FKind.Formats .f32)
    (hacc : acc = FKind.add.neutral .f32 hφ) (r : Fin n) :
    multiReduction (F := Ideal) .add [1] (⟨1, ![n]⟩ : Shape) P acc h hφ hacc (ix1 r) = ∑ k : Fin w, P (ix2 r k) := by
  refine (Ideal.multiReduction_add_single (φ := .f32) P acc h hφ hacc (ix1 r)).trans ?_
  have hf : (P ∘ h.lift (ix1 r)) = fun k : Fin w => P (ix2 r k) :=
    funext fun k => congrArg P (HostMax.lift_rows h r k)
  exact congrArg (fun f => ∑ k : Fin w, f k) hf

/-- One column broadcast across `w` columns: entry (r, t) is the column's entry of row `r`. -/
theorem broadcastTo_col_apply {α : Type} {n w : ℕ} (v : (⟨2, ![n, 1]⟩ : Shape).Idx → α)
    (h : (⟨2, ![n, 1]⟩ : Shape).Broadcasts ⟨2, ![n, w]⟩) (r : Fin n) (t : Fin w) :
    broadcastTo ⟨2, ![n, w]⟩ v h (ix2 r t) = v (ix2 r (0 : Fin 1)) := by
  refine broadcastTo_apply v h (ix2 r t) (ix2 r (0 : Fin 1)) fun ax => ?_
  match ax with
  | ⟨0, _⟩ =>
    show r.val = if n = 1 then 0 else r.val
    split
    · have := r.isLt; omega
    · rfl
  | ⟨1, _⟩ =>
    show (0 : ℕ) = if (1 : ℕ) = 1 then 0 else t.val
    rw [if_pos rfl]

end LaneRows

end
-- ==== Proof.LibColumns.lean ====
/-
  Column forms of layout operations, and a minimum taken along one axis, read at an index given by coordinates.

  A reduction that keeps its axis (`keepdims`) along the LAST axis of an `[a, b]` array leaves an `[a, 1]` column:
  the vector of per-row results cast from `[a]` to `[a, 1]`, later broadcast back over the `b` columns.  The two
  lemmas here read those operations at `ix2 …` indices, beside the library's row forms (`[a] → [1, a]`,
  `[1, b] → [a, b]`).  The third reads a `minimumf` reduction along one axis, at the ideal floats, as the fold of `min`
  from the accumulator's value over that axis's coordinates; the fourth says the f32 word `0x7F800000` is `⊤`.
-/
import Idealize.ShloMosaic.Lib.ValueLayout
import Idealize.ShloMosaic.PureOps.Ideal.Laws

namespace Idealize.ShloMosaic.ValueIdx

open Idealize.ShloMosaic

variable {α : Type}

/-- An `[a]` array cast to `[a, 1]` reads, at `(i, u)`, the operand at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` column broadcast to `[a, b]` reads, at `(p, c)`, the column's entry in row `p`. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- A float `vector.multi_reduction <minimumf>` over one axis, read at the ideal floats: the fold of `min` from the
    accumulator's value over that axis's coordinates (a column's minimum). -/
theorem multiReduction_minimumf_single {φ : FTy} {s t : Shape} {a : Fin s.rank} (src : FVec Ideal s φ) (acc : BitVec φ.bits)
    (h : s.Reduces [a] t) (hφ : FKind.Formats φ) (hacc : acc = FKind.minimumf.neutral φ hφ) (j : t.Idx) :
    multiReduction .minimumf [a] t src acc h hφ hacc j
      = (Finset.univ : Finset (Fin (s.size a))).fold min (FloatOps.ofBits φ acc) (src ∘ h.lift j) := by
  rw [multiReduction_minimumf_eq_fold]; exact h.fold_filter_drop_single _ _ src j

/-- The f32 word of `+∞` denotes `⊤`. -/
theorem ofBits_inf_f32 : Ideal.ofBits .f32 0x7F800000#32 = ⊤ := by
  simp [Ideal.ofBits, Ideal.ieee]

end Idealize.ShloMosaic.ValueIdx
-- ==== Proof.LibUnitAxes.lean ====
/-
  Two leading unit axes added to or dropped from a matrix, read at an index given by coordinates.

  A block [1, 1, a, b] of a rank-4 array — one (batch, head) pair's a × b matrix — cast to [a, b] reads at (i, j) the block at
  (0, 0, i, j); and an [a, b] matrix cast back to [1, 1, a, b] reads at (u, u', i, j) the matrix at (i, j), whatever the two unit
  coordinates. Both are the row-major position computed on each side. (Beside the library's one-unit-axis forms.)
-/
import Idealize.ShloMosaic.Lib.ValueIdx
import Idealize.ShloMosaic.Lib.Pipeline.Value
import Idealize.ShloMosaic.Lib.ValueLayout

namespace UnitAxes

open Idealize.ShloMosaic Idealize.ShloMosaic.ValueIdx

/-- A `[1, 1, a, b]` array cast to `[a, b]` reads, at `(i, j)`, the operand at `(0, 0, i, j)`. -/
theorem shapeCast_11ab_ab_apply {α : Type} {a b : ℕ} (x : (⟨4, ![1, 1, a, b]⟩ : Shape).Idx → α)
    (h : (⟨4, ![1, 1, a, b]⟩ : Shape).ShapeCasts ⟨2, ![a, b]⟩) (i : Fin a) (j : Fin b) :
    shapeCast ⟨2, ![a, b]⟩ x h (ix2 i j) = x (ix4 (0 : Fin 1) (0 : Fin 1) i j) :=
  shapeCast_apply x h _ _ (by
    rw [Shape.rowMajor_val_four, Shape.rowMajor_val_two]
    show ((0 * 1 + 0) * a + i.val) * b + j.val = i.val * b + j.val
    simp only [Nat.zero_mul, Nat.zero_add])

/-- An `[a, b]` array cast to `[1, 1, a, b]` reads, at `(u, u', i, j)`, the operand at `(i, j)`. -/
theorem shapeCast_ab_11ab_apply {α : Type} {a b : ℕ} (x : (⟨2, ![a, b]⟩ : Shape).Idx → α)
    (h : (⟨2, ![a, b]⟩ : Shape).ShapeCasts ⟨4, ![1, 1, a, b]⟩) (u u' : Fin 1) (i : Fin a) (j : Fin b) :
    shapeCast ⟨4, ![1, 1, a, b]⟩ x h (ix4 u u' i j) = x (ix2 i j) :=
  shapeCast_apply x h _ _ (by
    have hu : u.val = 0 := by omega
    have hu' : u'.val = 0 := by omega
    rw [Shape.rowMajor_val_four, Shape.rowMajor_val_two]
    show i.val * b + j.val = ((u.val * 1 + u'.val) * a + i.val) * b + j.val
    rw [hu, hu']
    simp only [Nat.zero_mul, Nat.zero_add])

end UnitAxes
-- ==== Proof.Payloads.lean ====
/-
  The three kernel bodies' stored values, read index by index over the extended reals, are the formulas of the specification.
-/
import proofs.«131226_j70806830842616_1_alg».proof.Proof.Gen.KernelIdeal.Skeleton
import proofs.«131226_j70806830842616_1_alg».proof.Proof.Spec
import proofs.«131226_j70806830842616_1_alg».proof.Proof.LibDotRows
import proofs.«131226_j70806830842616_1_alg».proof.Proof.LibDotCols
import proofs.«131226_j70806830842616_1_alg».proof.Proof.LibLaneCols
import proofs.«131226_j70806830842616_1_alg».proof.Proof.LibLaneRows
import proofs.«131226_j70806830842616_1_alg».proof.Proof.LibColumns
import proofs.«131226_j70806830842616_1_alg».proof.Proof.LibUnitAxes
import Idealize.ShloMosaic.Lib.ValueLayout
import Idealize.ShloMosaic.Lib.Pipeline.Value

noncomputable section

open scoped BigOperators

namespace Cert.Payloads

open Idealize.ShloMosaic Idealize.ShloMosaic.ValueIdx Cert.KernelIdeal Cert.KernelIdeal.Gen Cert.Attn UnitAxes

/-- The projection kernel's three stored blocks: entry (0, n, e) is the inner product of row `n` of the block with row `e` of the weights. -/
theorem pay_q (xb : Vec Ideal S1x1024x512 .f32) (w : Vec Ideal S512x512 .f32) (n : Fin 1024) (e : Fin 512) :
    k0_pay2 (F := Ideal) xb w (ix3 (0 : Fin 1) n e) = ∑ k : Fin 512, xb (ix3 (0 : Fin 1) n k) * w (ix2 e k) := by
  unfold k0_pay2
  refine (shapeCast_ab_1ab_apply _ _ (0 : Fin 1) n e).trans ?_
  refine (Cert.Lib.DotRows.matmul_rows_apply _ rfl none _ _ n e).trans ?_
  refine Finset.sum_congr rfl fun k _ => ?_
  exact congrArg (· * w (ix2 e k)) (shapeCast_1ab_ab_apply xb _ n k)
theorem pay_k (xb : Vec Ideal S1x1024x512 .f32) (w : Vec Ideal S512x512 .f32) (n : Fin 1024) (e : Fin 512) :
    k0_pay3 (F := Ideal) xb w (ix3 (0 : Fin 1) n e) = ∑ k : Fin 512, xb (ix3 (0 : Fin 1) n k) * w (ix2 e k) := by
  unfold k0_pay3
  refine (shapeCast_ab_1ab_apply _ _ (0 : Fin 1) n e).trans ?_
  refine (Cert.Lib.DotRows.matmul_rows_apply _ rfl none _ _ n e).trans ?_
  refine Finset.sum_congr rfl fun k _ => ?_
  exact congrArg (· * w (ix2 e k)) (shapeCast_1ab_ab_apply xb _ n k)
theorem pay_v (xb : Vec Ideal S1x1024x512 .f32) (w : Vec Ideal S512x512 .f32) (n : Fin 1024) (e : Fin 512) :
    k0_pay4 (F := Ideal) xb w (ix3 (0 : Fin 1) n e) = ∑ k : Fin 512, xb (ix3 (0 : Fin 1) n k) * w (ix2 e k) := by
  unfold k0_pay4
  refine (shapeCast_ab_1ab_apply _ _ (0 : Fin 1) n e).trans ?_
  refine (Cert.Lib.DotRows.matmul_rows_apply _ rfl none _ _ n e).trans ?_
  refine Finset.sum_congr rfl fun k _ => ?_
  exact congrArg (· * w (ix2 e k)) (shapeCast_1ab_ab_apply xb _ n k)

/-! ### The attention body, stage by stage

Each stage is read at an entry `(i, j)` of a 1024 × 1024 array (or `(i, d)` of a 1024 × 64 one), over an arbitrary operand whose
entries are given by a function of the coordinates; the stages then compose to the specification's chain
score → column maximum → exponential → column sum → softmax over queries → row sum plus ε → renormalised weight → output. -/

/-- The exponential of an array at an index is the exponential of the entry. -/
theorem exp_apply {s : Shape} {φ : FTy} (a : FVec Ideal s φ) (i : s.Idx) : exp a i = Ideal.exp (a i) := rfl

/-- The scaled scores: the product of the queries with the transposed keys, times the scale. -/
theorem scores_spec (q k : FVec Ideal S1024x64 .f32) (Q K : Fin 1024 → Fin 64 → EReal)
    (hq : ∀ i d, q (ix2 i d) = Q i d) (hk : ∀ j d, k (ix2 j d) = K j d) (i j : Fin 1024) :
    mulf (matmul dot_S1024x64_S64x1024_S1024x1024_1_0_0_1_n_n none (truncf .bf16 q bitsLt_bf16_f32)
            (transpose S64x1024 [1, 0] (truncf .bf16 k bitsLt_bf16_f32) transposes_S1024x64_p1_0_S64x1024)
            (constant (F := Ideal) S1024x1024 .f32 0x00000000#32))
         (broadcast S1024x1024 (Scalar.ofBits (F := Ideal) .f32 0x3E000000#32)) (ix2 i j)
      = score Q K i j := by
  refine (mulf_apply _ _ _).trans ?_
  unfold score
  refine congrArg₂ (· * ·) ?_ rfl
  refine (Cert.Lib.DotCols.matmul_cols_apply _ rfl none _ _ i j).trans ?_
  refine Finset.sum_congr rfl fun d _ => ?_
  exact congrArg₂ (· * ·) (hq i d) ((transpose_ix2_apply _ _ d j).trans (hk j d))

/-- The exponential of an entry shifted by its column's maximum. -/
theorem expo_spec (s : FVec Ideal S1024x1024 .f32) (S : Fin 1024 → Fin 1024 → EReal)
    (hs : ∀ i j, s (ix2 i j) = S i j) (i j : Fin 1024) :
    exp (subf s (broadcastTo S1024x1024 (shapeCast S1x1024
        (multiReduction (F := Ideal) .maximumf [0] S1024 s 0xFF800000#32 reduces_S1024x1024_S1024 (.inl rfl) rfl)
        shapeCasts_S1024_S1x1024) broadcasts_S1x1024_S1024x1024)) (ix2 i j)
      = Ideal.exp (S i j - (Finset.univ : Finset (Fin 1024)).sup fun i' => S i' j) := by
  refine (exp_apply _ _).trans (congrArg Ideal.exp ?_)
  refine (subf_apply _ _ _).trans ?_
  refine congrArg₂ (· - ·) (hs i j) ?_
  refine (broadcastTo_1b_ab_apply _ _ i j).trans ?_
  refine (shapeCast_a_1a_apply _ _ (0 : Fin 1) j).trans ?_
  refine (LaneCols.multiReduction_max_cols s _ _ _ j).trans ?_
  exact congrArg (fun f => (Finset.univ : Finset (Fin 1024)).sup f) (funext fun i' => hs i' j)

/-- An entry divided by its column's sum. -/
theorem soft_spec (e : FVec Ideal S1024x1024 .f32) (E : Fin 1024 → Fin 1024 → EReal)
    (he : ∀ i j, e (ix2 i j) = E i j) (i j : Fin 1024) :
    divf e (broadcastTo S1024x1024 (shapeCast S1x1024
        (multiReduction (F := Ideal) .add [0] S1024 e 0x00000000#32 reduces_S1024x1024_S1024 (.inl rfl) rfl)
        shapeCasts_S1024_S1x1024) broadcasts_S1x1024_S1024x1024) (ix2 i j)
      = Ideal.div (E i j) (∑ i' : Fin 1024, E i' j) := by
  refine (divf_apply _ _ _).trans ?_
  refine congrArg₂ Ideal.div (he i j) ?_
  refine (broadcastTo_1b_ab_apply _ _ i j).trans ?_
  refine (shapeCast_a_1a_apply _ _ (0 : Fin 1) j).trans ?_
  refine (LaneCols.multiReduction_add_cols e _ _ _ _ j).trans ?_
  exact Finset.sum_congr rfl fun i' _ => he i' j

/-- An entry divided by its row's sum plus ε. -/
theorem weight_spec (a : FVec Ideal S1024x1024 .f32) (A : Fin 1024 → Fin 1024 → EReal)
    (ha : ∀ i j, a (ix2 i j) = A i j) (i j : Fin 1024) :
    divf a (broadcastTo S1024x1024 (addf (shapeCast S1024x1
        (multiReduction (F := Ideal) .add [1] S1024 a 0x00000000#32 reduces_S1024x1024_S1024_2 (.inl rfl) rfl)
        shapeCasts_S1024_S1024x1) (broadcast S1024x1 (Scalar.ofBits (F := Ideal) .f32 0x33D6BF95#32)))
        broadcasts_S1024x1_S1024x1024) (ix2 i j)
      = Ideal.div (A i j) ((∑ j' : Fin 1024, A i j') + eps) := by
  refine (divf_apply _ _ _).trans ?_
  refine congrArg₂ Ideal.div (ha i j) ?_
  refine (broadcastTo_a1_ab_apply _ _ i j).trans ?_
  refine (addf_apply _ _ _).trans ?_
  refine congrArg₂ (· + ·) ?_ rfl
  refine (shapeCast_a_a1_apply _ _ i (0 : Fin 1)).trans ?_
  refine (LaneRows.multiReduction_add_rows a _ _ _ _ i).trans ?_
  exact Finset.sum_congr rfl fun j' _ => ha i j'

/-- The output: the weights times the values. -/
theorem out_spec (w : FVec Ideal S1024x1024 .f32) (v : FVec Ideal S1024x64 .f32)
    (W : Fin 1024 → Fin 1024 → EReal) (V : Fin 1024 → Fin 64 → EReal)
    (hw : ∀ i j, w (ix2 i j) = W i j) (hv : ∀ j d, v (ix2 j d) = V j d) (i : Fin 1024) (d : Fin 64) :
    matmul dot_S1024x1024_S1024x64_S1024x64_1_0_0_1_n_n none (truncf .bf16 w bitsLt_bf16_f32) (truncf .bf16 v bitsLt_bf16_f32)
        (constant (F := Ideal) S1024x64 .f32 0x00000000#32) (ix2 i d)
      = ∑ j : Fin 1024, W i j * V j d := by
  refine (Cert.Lib.DotCols.matmul_cols_apply _ rfl none _ _ i d).trans ?_
  exact Finset.sum_congr rfl fun j _ => congrArg₂ (· * ·) (hw i j) (hv j d)

/-- The attention kernel's stored block is one head's output. -/
theorem pay_attend (qb kb vb : Vec Ideal S1x1x1024x64 .f32) (i : Fin 1024) (d : Fin 64) :
    k1_pay1 (F := Ideal) qb kb vb (ix4 (0 : Fin 1) (0 : Fin 1) i d)
      = headOut (fun i d => qb (ix4 (0 : Fin 1) (0 : Fin 1) i d)) (fun j d => kb (ix4 (0 : Fin 1) (0 : Fin 1) j d))
          (fun j d => vb (ix4 (0 : Fin 1) (0 : Fin 1) j d)) i d := by
  unfold k1_pay1
  refine (shapeCast_ab_11ab_apply _ _ (0 : Fin 1) (0 : Fin 1) i d).trans ?_
  refine out_spec _ _
    (weight (fun i d => qb (ix4 (0 : Fin 1) (0 : Fin 1) i d)) (fun j d => kb (ix4 (0 : Fin 1) (0 : Fin 1) j d)))
    (fun j d => vb (ix4 (0 : Fin 1) (0 : Fin 1) j d)) (fun i j => ?_) (fun j d => ?_) i d
  · refine weight_spec _
      (soft (fun i d => qb (ix4 (0 : Fin 1) (0 : Fin 1) i d)) (fun j d => kb (ix4 (0 : Fin 1) (0 : Fin 1) j d)))
      (fun i j => ?_) i j
    refine soft_spec _
      (expo (fun i d => qb (ix4 (0 : Fin 1) (0 : Fin 1) i d)) (fun j d => kb (ix4 (0 : Fin 1) (0 : Fin 1) j d)))
      (fun i j => ?_) i j
    refine expo_spec _
      (score (fun i d => qb (ix4 (0 : Fin 1) (0 : Fin 1) i d)) (fun j d => kb (ix4 (0 : Fin 1) (0 : Fin 1) j d)))
      (fun i j => ?_) i j
    refine scores_spec _ _ (fun i d => qb (ix4 (0 : Fin 1) (0 : Fin 1) i d)) (fun j d => kb (ix4 (0 : Fin 1) (0 : Fin 1) j d))
      (fun i d => ?_) (fun j d => ?_) i j
    · exact shapeCast_11ab_ab_apply qb _ i d
    · exact shapeCast_11ab_ab_apply kb _ j d
  · exact shapeCast_11ab_ab_apply vb _ j d

/-- The output kernel's stored block: the inner product plus the bias row's entry. -/
theorem pay_out (xb : Vec Ideal S1x1024x512 .f32) (w : Vec Ideal S512x512 .f32) (b2 : Vec Ideal S1x512 .f32) (n : Fin 1024) (e : Fin 512) :
    k2_pay1 (F := Ideal) xb w b2 (ix3 (0 : Fin 1) n e)
      = (∑ k : Fin 512, xb (ix3 (0 : Fin 1) n k) * w (ix2 e k)) + b2 (ix2 (0 : Fin 1) e) := by
  unfold k2_pay1
  refine (shapeCast_ab_1ab_apply _ _ (0 : Fin 1) n e).trans ?_
  refine (addf_apply _ _ _).trans ?_
  refine congrArg₂ (· + ·) ?_ ?_
  · refine (Cert.Lib.DotRows.matmul_rows_apply _ rfl none _ _ n e).trans ?_
    refine Finset.sum_congr rfl fun k _ => ?_
    exact congrArg (· * w (ix2 e k)) (shapeCast_1ab_ab_apply xb _ n k)
  · refine (broadcastTo_1b_ab_apply _ _ n e).trans ?_
    exact congrFun (shapeCast_self b2 _) _

end Cert.Payloads

end
-- ==== Proof.ProjArray.lean ====
/-
  The first launch, from its blocks to its three whole result arrays.

  Grid point `t` (one per batch) reads block (t, 0, 0) of the input and of the context — all 1024 rows of batch `t` — and the
  three weight matrices whole, and writes block (t, 0, 0) of the query, key and value arrays. An entry (b, n, e) of a result lies in
  point `b`'s block at (0, n, e) and holds the inner product of row (b, n) of the input (for the queries) or of the context (for
  keys and values) with row `e` of the weights. The eight blocks tile each array, so each array after the launch is the linear
  map of the specification applied to the arrays as the launch finds them.
-/
import proofs.«131226_j70806830842616_1_alg».proof.Proof.Gen.KernelIdeal.Frame
import proofs.«131226_j70806830842616_1_alg».proof.Proof.Payloads
import Idealize.ShloMosaic.Lib.Pipeline.Value

set_option maxRecDepth 16384

noncomputable section

open scoped BigOperators

namespace Cert.ProjArray

open Cert.KernelIdeal Cert.KernelIdeal.Gen Cert.Attn
open Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

/-- An array read at an index, typed as an extended real. -/
abbrev rd (s : Shape) (f : s.Idx → EReal) (i : s.Idx) : EReal := f i

theorem hz3 : (![0, 0, 0] : Fin 3 → Nat) = fun _ => 0 := funext fun a => by fin_cases a <;> rfl
theorem hz2 : (![0, 0] : Fin 2 → Nat) = fun _ => 0 := funext fun a => by fin_cases a <;> rfl

/-- The printed index maps over the grid: the input, context and the three result blocks all sit at (batch of the point, 0, 0);
    the weights are always block (0, 0). -/
theorem idx_facts : ∀ t : Fin cfg0.N,
    win0_0.index t (0 : Fin 3) = win0_5.index t (0 : Fin 3) ∧ win0_0.index t (1 : Fin 3) = 0 ∧ win0_0.index t (2 : Fin 3) = 0
    ∧ win0_1.index t (0 : Fin 3) = win0_5.index t (0 : Fin 3) ∧ win0_1.index t (1 : Fin 3) = 0 ∧ win0_1.index t (2 : Fin 3) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 3) = win0_5.index t (0 : Fin 3) ∧ win0_5.index t (1 : Fin 3) = 0 ∧ win0_5.index t (2 : Fin 3) = 0
    ∧ win0_6.index t (0 : Fin 3) = win0_5.index t (0 : Fin 3) ∧ win0_6.index t (1 : Fin 3) = 0 ∧ win0_6.index t (2 : Fin 3) = 0
    ∧ win0_7.index t (0 : Fin 3) = win0_5.index t (0 : Fin 3) ∧ win0_7.index t (1 : Fin 3) = 0 ∧ win0_7.index t (2 : Fin 3) = 0
    ∧ win0_5.index t (0 : Fin 3) < 8 :=
  (by decide +kernel : ∀ t : Fin grid0.N, _)

/-- Every batch is some point's block, in each of the three results. -/
theorem idx_onto : ∀ q0 : Fin 8, ∃ t : Fin cfg0.N, win0_5.index t (0 : Fin 3) = q0.val ∧ win0_6.index t (0 : Fin 3) = q0.val ∧ win0_7.index t (0 : Fin 3) = q0.val :=
  (by decide +kernel : ∀ q0 : Fin 8, ∃ t : Fin grid0.N, win0_5.index t (0 : Fin 3) = q0.val ∧ win0_6.index t (0 : Fin 3) = q0.val ∧ win0_7.index t (0 : Fin 3) = q0.val)

/-! ## The query projection: output window 5 from windows 0 and 2 -/

/-- What point `t` writes back is block `t` of the linear map of the two arrays as the launch finds them. -/
theorem flushed_q (c : Dev nD) (t : Fin cfg0.N) :
    (dat0 V c).flushed 5 t = ((cfg0.win 5).blk t).view.read (Elt Ideal) (linear (V c main_arg0) (V c main_arg2)) := by
  show (cfg0.win 5).cut (grid0.coords t) ((dat0 V c).after 5 t) = _
  rw [after0_5]
  unfold out0_5
  rw [View.canon_unit_zero hz3]
  simp only [View.ld_unit_zero (S := S1x1024x512) hz3, View.ld_unit_zero (S := S512x512) hz2]
  obtain ⟨a0, a1, a2, b0, b1, b2, w20, w21, w30, w31, w40, w41, o50, o51, o52, o60, o61, o62, o70, o71, o72, hlt⟩ := idx_facts t
  funext j
  obtain ⟨u, n, e, rfl⟩ : ∃ (u : Fin 1) (n : Fin 1024) (e : Fin 512), j = ix3 u n e := ⟨j 0, j 1, j 2, eq_ix3 j⟩
  obtain rfl : u = 0 := Subsingleton.elim _ _
  refine (Cert.Payloads.pay_q _ _ n e).trans ?_
  show (∑ k : Fin 512, rd S8x1024x512 (V c main_arg0) (((cfg0.win 0).blk t).view.emb (ix3 (0 : Fin 1) n k))
          * rd S512x512 (V c main_arg2) (((cfg0.win 2).blk t).view.emb (ix2 e k)))
      = linear (V c main_arg0) (V c main_arg2) (((cfg0.win 5).blk t).view.emb (ix3 (0 : Fin 1) n e))
  unfold linear rd
  have hy : ∀ k : Fin 512, ((cfg0.win 0).blk t).view.emb (ix3 (0 : Fin 1) n k)
      = ix3 ((((cfg0.win 5).blk t).view.emb (ix3 (0 : Fin 1) n e)) 0) ((((cfg0.win 5).blk t).view.emb (ix3 (0 : Fin 1) n e)) 1) k := by
    intro k; funext a; apply Fin.ext
    match a with
    | ⟨0, _⟩ => show win0_0.index t (0 : Fin 3) * 1 + 1 * 0 = win0_5.index t (0 : Fin 3) * 1 + 1 * 0; omega
    | ⟨1, _⟩ => show win0_0.index t (1 : Fin 3) * 1024 + 1 * n.val = win0_5.index t (1 : Fin 3) * 1024 + 1 * n.val; omega
    | ⟨2, _⟩ => show win0_0.index t (2 : Fin 3) * 512 + 1 * k.val = k.val; omega
  have hw : ∀ k : Fin 512, ((cfg0.win 2).blk t).view.emb (ix2 e k)
      = ix2 ((((cfg0.win 5).blk t).view.emb (ix3 (0 : Fin 1) n e)) 2) k := by
    intro k; funext a; apply Fin.ext
    match a with
    | ⟨0, _⟩ => show win0_2.index t (0 : Fin 2) * 512 + 1 * e.val = win0_5.index t (2 : Fin 3) * 512 + 1 * e.val; omega
    | ⟨1, _⟩ => show win0_2.index t (1 : Fin 2) * 512 + 1 * k.val = k.val; omega
  refine Finset.sum_congr rfl fun k _ => ?_
  rw [hy k, hw k] <;> rfl

/-- An index of the array is in point `t`'s block iff each coordinate is in the block's range on its axis. -/
theorem mem_blk_q (t : Fin cfg0.N) (i : S8x1024x512.Idx) :
    i ∈ ((cfg0.win 5).blk t).view.set ↔ ∀ a : Fin 3, win0_5.index t a * S1x1024x512.size a ≤ (i a).val ∧ (i a).val < win0_5.index t a * S1x1024x512.size a + S1x1024x512.size a := by
  show i ∈ ((View.whole main_v0_0).slice (win0_5.rect t)).set ↔ _
  rw [View.set_slice_whole, Rect.mem_set_unit]
  exact Iff.rfl

/-- The blocks tile the array: entry (b, n, e) is in the block of the point whose batch is `b`. -/
theorem cover_q (i : S8x1024x512.Idx) : ∃ t : Fin cfg0.N, (cfg0.win 5).flush t = true ∧ i ∈ ((cfg0.win 5).blk t).view.set := by
  have hi0 : (i 0).val < 8 := (i 0).isLt
  have hi1 : (i 1).val < 1024 := (i 1).isLt
  have hi2 : (i 2).val < 512 := (i 2).isLt
  obtain ⟨t, ht5, ht6, ht7⟩ := idx_onto ⟨(i 0).val, hi0⟩
  have q5 : win0_5.index t (0 : Fin 3) = (i 0).val := ht5
  have q6 : win0_6.index t (0 : Fin 3) = (i 0).val := ht6
  have q7 : win0_7.index t (0 : Fin 3) = (i 0).val := ht7
  obtain ⟨a0, a1, a2, b0, b1, b2, w20, w21, w30, w31, w40, w41, o50, o51, o52, o60, o61, o62, o70, o71, o72, hlt⟩ := idx_facts t
  refine ⟨t, flush0_5 t, ?_⟩
  rw [mem_blk_q]
  intro a
  match a with
  | ⟨0, _⟩ => show win0_5.index t (0 : Fin 3) * 1 ≤ (i 0).val ∧ (i 0).val < win0_5.index t (0 : Fin 3) * 1 + 1; omega
  | ⟨1, _⟩ => show win0_5.index t (1 : Fin 3) * 1024 ≤ (i 1).val ∧ (i 1).val < win0_5.index t (1 : Fin 3) * 1024 + 1024; omega
  | ⟨2, _⟩ => show win0_5.index t (2 : Fin 3) * 512 ≤ (i 2).val ∧ (i 2).val < win0_5.index t (2 : Fin 3) * 512 + 512; omega

/-- The query array after the launch: the linear map of the two input arrays as the launch finds them. -/
theorem final_q (c : Dev nD) : (dat0 V c).arrAt 5 cfg0.N = linear (V c main_arg0) (V c main_arg2) :=
  (dat0 V c).arrAt_eq_of_cover 5 _ (fun t _ => flushed_q V c t) cover_q

/-! ## The key projection: output window 6 from windows 1 and 3 -/

/-- What point `t` writes back is block `t` of the linear map of the two arrays as the launch finds them. -/
theorem flushed_k (c : Dev nD) (t : Fin cfg0.N) :
    (dat0 V c).flushed 6 t = ((cfg0.win 6).blk t).view.read (Elt Ideal) (linear (V c main_arg1) (V c main_arg3)) := by
  show (cfg0.win 6).cut (grid0.coords t) ((dat0 V c).after 6 t) = _
  rw [after0_6]
  unfold out0_6
  rw [View.canon_unit_zero hz3]
  simp only [View.ld_unit_zero (S := S1x1024x512) hz3, View.ld_unit_zero (S := S512x512) hz2]
  obtain ⟨a0, a1, a2, b0, b1, b2, w20, w21, w30, w31, w40, w41, o50, o51, o52, o60, o61, o62, o70, o71, o72, hlt⟩ := idx_facts t
  funext j
  obtain ⟨u, n, e, rfl⟩ : ∃ (u : Fin 1) (n : Fin 1024) (e : Fin 512), j = ix3 u n e := ⟨j 0, j 1, j 2, eq_ix3 j⟩
  obtain rfl : u = 0 := Subsingleton.elim _ _
  refine (Cert.Payloads.pay_k _ _ n e).trans ?_
  show (∑ k : Fin 512, rd S8x1024x512 (V c main_arg1) (((cfg0.win 1).blk t).view.emb (ix3 (0 : Fin 1) n k))
          * rd S512x512 (V c main_arg3) (((cfg0.win 3).blk t).view.emb (ix2 e k)))
      = linear (V c main_arg1) (V c main_arg3) (((cfg0.win 6).blk t).view.emb (ix3 (0 : Fin 1) n e))
  unfold linear rd
  have hy : ∀ k : Fin 512, ((cfg0.win 1).blk t).view.emb (ix3 (0 : Fin 1) n k)
      = ix3 ((((cfg0.win 6).blk t).view.emb (ix3 (0 : Fin 1) n e)) 0) ((((cfg0.win 6).blk t).view.emb (ix3 (0 : Fin 1) n e)) 1) k := by
    intro k; funext a; apply Fin.ext
    match a with
    | ⟨0, _⟩ => show win0_1.index t (0 : Fin 3) * 1 + 1 * 0 = win0_6.index t (0 : Fin 3) * 1 + 1 * 0; omega
    | ⟨1, _⟩ => show win0_1.index t (1 : Fin 3) * 1024 + 1 * n.val = win0_6.index t (1 : Fin 3) * 1024 + 1 * n.val; omega
    | ⟨2, _⟩ => show win0_1.index t (2 : Fin 3) * 512 + 1 * k.val = k.val; omega
  have hw : ∀ k : Fin 512, ((cfg0.win 3).blk t).view.emb (ix2 e k)
      = ix2 ((((cfg0.win 6).blk t).view.emb (ix3 (0 : Fin 1) n e)) 2) k := by
    intro k; funext a; apply Fin.ext
    match a with
    | ⟨0, _⟩ => show win0_3.index t (0 : Fin 2) * 512 + 1 * e.val = win0_6.index t (2 : Fin 3) * 512 + 1 * e.val; omega
    | ⟨1, _⟩ => show win0_3.index t (1 : Fin 2) * 512 + 1 * k.val = k.val; omega
  refine Finset.sum_congr rfl fun k _ => ?_
  rw [hy k, hw k] <;> rfl

/-- An index of the array is in point `t`'s block iff each coordinate is in the block's range on its axis. -/
theorem mem_blk_k (t : Fin cfg0.N) (i : S8x1024x512.Idx) :
    i ∈ ((cfg0.win 6).blk t).view.set ↔ ∀ a : Fin 3, win0_6.index t a * S1x1024x512.size a ≤ (i a).val ∧ (i a).val < win0_6.index t a * S1x1024x512.size a + S1x1024x512.size a := by
  show i ∈ ((View.whole main_v0_1).slice (win0_6.rect t)).set ↔ _
  rw [View.set_slice_whole, Rect.mem_set_unit]
  exact Iff.rfl

/-- The blocks tile the array: entry (b, n, e) is in the block of the point whose batch is `b`. -/
theorem cover_k (i : S8x1024x512.Idx) : ∃ t : Fin cfg0.N, (cfg0.win 6).flush t = true ∧ i ∈ ((cfg0.win 6).blk t).view.set := by
  have hi0 : (i 0).val < 8 := (i 0).isLt
  have hi1 : (i 1).val < 1024 := (i 1).isLt
  have hi2 : (i 2).val < 512 := (i 2).isLt
  obtain ⟨t, ht5, ht6, ht7⟩ := idx_onto ⟨(i 0).val, hi0⟩
  have q5 : win0_5.index t (0 : Fin 3) = (i 0).val := ht5
  have q6 : win0_6.index t (0 : Fin 3) = (i 0).val := ht6
  have q7 : win0_7.index t (0 : Fin 3) = (i 0).val := ht7
  obtain ⟨a0, a1, a2, b0, b1, b2, w20, w21, w30, w31, w40, w41, o50, o51, o52, o60, o61, o62, o70, o71, o72, hlt⟩ := idx_facts t
  refine ⟨t, flush0_6 t, ?_⟩
  rw [mem_blk_k]
  intro a
  match a with
  | ⟨0, _⟩ => show win0_6.index t (0 : Fin 3) * 1 ≤ (i 0).val ∧ (i 0).val < win0_6.index t (0 : Fin 3) * 1 + 1; omega
  | ⟨1, _⟩ => show win0_6.index t (1 : Fin 3) * 1024 ≤ (i 1).val ∧ (i 1).val < win0_6.index t (1 : Fin 3) * 1024 + 1024; omega
  | ⟨2, _⟩ => show win0_6.index t (2 : Fin 3) * 512 ≤ (i 2).val ∧ (i 2).val < win0_6.index t (2 : Fin 3) * 512 + 512; omega

/-- The key array after the launch: the linear map of the two input arrays as the launch finds them. -/
theorem final_k (c : Dev nD) : (dat0 V c).arrAt 6 cfg0.N = linear (V c main_arg1) (V c main_arg3) :=
  (dat0 V c).arrAt_eq_of_cover 6 _ (fun t _ => flushed_k V c t) cover_k

/-! ## The value projection: output window 7 from windows 1 and 4 -/

/-- What point `t` writes back is block `t` of the linear map of the two arrays as the launch finds them. -/
theorem flushed_v (c : Dev nD) (t : Fin cfg0.N) :
    (dat0 V c).flushed 7 t = ((cfg0.win 7).blk t).view.read (Elt Ideal) (linear (V c main_arg1) (V c main_arg4)) := by
  show (cfg0.win 7).cut (grid0.coords t) ((dat0 V c).after 7 t) = _
  rw [after0_7]
  unfold out0_7
  rw [View.canon_unit_zero hz3]
  simp only [View.ld_unit_zero (S := S1x1024x512) hz3, View.ld_unit_zero (S := S512x512) hz2]
  obtain ⟨a0, a1, a2, b0, b1, b2, w20, w21, w30, w31, w40, w41, o50, o51, o52, o60, o61, o62, o70, o71, o72, hlt⟩ := idx_facts t
  funext j
  obtain ⟨u, n, e, rfl⟩ : ∃ (u : Fin 1) (n : Fin 1024) (e : Fin 512), j = ix3 u n e := ⟨j 0, j 1, j 2, eq_ix3 j⟩
  obtain rfl : u = 0 := Subsingleton.elim _ _
  refine (Cert.Payloads.pay_v _ _ n e).trans ?_
  show (∑ k : Fin 512, rd S8x1024x512 (V c main_arg1) (((cfg0.win 1).blk t).view.emb (ix3 (0 : Fin 1) n k))
          * rd S512x512 (V c main_arg4) (((cfg0.win 4).blk t).view.emb (ix2 e k)))
      = linear (V c main_arg1) (V c main_arg4) (((cfg0.win 7).blk t).view.emb (ix3 (0 : Fin 1) n e))
  unfold linear rd
  have hy : ∀ k : Fin 512, ((cfg0.win 1).blk t).view.emb (ix3 (0 : Fin 1) n k)
      = ix3 ((((cfg0.win 7).blk t).view.emb (ix3 (0 : Fin 1) n e)) 0) ((((cfg0.win 7).blk t).view.emb (ix3 (0 : Fin 1) n e)) 1) k := by
    intro k; funext a; apply Fin.ext
    match a with
    | ⟨0, _⟩ => show win0_1.index t (0 : Fin 3) * 1 + 1 * 0 = win0_7.index t (0 : Fin 3) * 1 + 1 * 0; omega
    | ⟨1, _⟩ => show win0_1.index t (1 : Fin 3) * 1024 + 1 * n.val = win0_7.index t (1 : Fin 3) * 1024 + 1 * n.val; omega
    | ⟨2, _⟩ => show win0_1.index t (2 : Fin 3) * 512 + 1 * k.val = k.val; omega
  have hw : ∀ k : Fin 512, ((cfg0.win 4).blk t).view.emb (ix2 e k)
      = ix2 ((((cfg0.win 7).blk t).view.emb (ix3 (0 : Fin 1) n e)) 2) k := by
    intro k; funext a; apply Fin.ext
    match a with
    | ⟨0, _⟩ => show win0_4.index t (0 : Fin 2) * 512 + 1 * e.val = win0_7.index t (2 : Fin 3) * 512 + 1 * e.val; omega
    | ⟨1, _⟩ => show win0_4.index t (1 : Fin 2) * 512 + 1 * k.val = k.val; omega
  refine Finset.sum_congr rfl fun k _ => ?_
  rw [hy k, hw k] <;> rfl

/-- An index of the array is in point `t`'s block iff each coordinate is in the block's range on its axis. -/
theorem mem_blk_v (t : Fin cfg0.N) (i : S8x1024x512.Idx) :
    i ∈ ((cfg0.win 7).blk t).view.set ↔ ∀ a : Fin 3, win0_7.index t a * S1x1024x512.size a ≤ (i a).val ∧ (i a).val < win0_7.index t a * S1x1024x512.size a + S1x1024x512.size a := by
  show i ∈ ((View.whole main_v0_2).slice (win0_7.rect t)).set ↔ _
  rw [View.set_slice_whole, Rect.mem_set_unit]
  exact Iff.rfl

/-- The blocks tile the array: entry (b, n, e) is in the block of the point whose batch is `b`. -/
theorem cover_v (i : S8x1024x512.Idx) : ∃ t : Fin cfg0.N, (cfg0.win 7).flush t = true ∧ i ∈ ((cfg0.win 7).blk t).view.set := by
  have hi0 : (i 0).val < 8 := (i 0).isLt
  have hi1 : (i 1).val < 1024 := (i 1).isLt
  have hi2 : (i 2).val < 512 := (i 2).isLt
  obtain ⟨t, ht5, ht6, ht7⟩ := idx_onto ⟨(i 0).val, hi0⟩
  have q5 : win0_5.index t (0 : Fin 3) = (i 0).val := ht5
  have q6 : win0_6.index t (0 : Fin 3) = (i 0).val := ht6
  have q7 : win0_7.index t (0 : Fin 3) = (i 0).val := ht7
  obtain ⟨a0, a1, a2, b0, b1, b2, w20, w21, w30, w31, w40, w41, o50, o51, o52, o60, o61, o62, o70, o71, o72, hlt⟩ := idx_facts t
  refine ⟨t, flush0_7 t, ?_⟩
  rw [mem_blk_v]
  intro a
  match a with
  | ⟨0, _⟩ => show win0_7.index t (0 : Fin 3) * 1 ≤ (i 0).val ∧ (i 0).val < win0_7.index t (0 : Fin 3) * 1 + 1; omega
  | ⟨1, _⟩ => show win0_7.index t (1 : Fin 3) * 1024 ≤ (i 1).val ∧ (i 1).val < win0_7.index t (1 : Fin 3) * 1024 + 1024; omega
  | ⟨2, _⟩ => show win0_7.index t (2 : Fin 3) * 512 ≤ (i 2).val ∧ (i 2).val < win0_7.index t (2 : Fin 3) * 512 + 512; omega

/-- The value array after the launch: the linear map of the two input arrays as the launch finds them. -/
theorem final_v (c : Dev nD) : (dat0 V c).arrAt 7 cfg0.N = linear (V c main_arg1) (V c main_arg4) :=
  (dat0 V c).arrAt_eq_of_cover 7 _ (fun t _ => flushed_v V c t) cover_v

end Cert.ProjArray

end
-- ==== Proof.AttnArray.lean ====
/-
  The second launch, from its blocks to its whole result array.

  Grid point (b, h) reads block (b, h, 0, 0) of the head-split queries, keys and values — all 1024 rows of head `h` of batch `b` —
  and writes block (b, h, 0, 0) of the result. An entry (b, h, i, d) of the result lies in point (b, h)'s block at (0, 0, i, d) and holds
  that head's output at (i, d). The sixty-four blocks tile the array, so the array after the launch is `attend` of the three arrays
  as the launch finds them.
-/
import proofs.«131226_j70806830842616_1_alg».proof.Proof.Gen.KernelIdeal.Frame
import proofs.«131226_j70806830842616_1_alg».proof.Proof.Payloads
import Idealize.ShloMosaic.Lib.Pipeline.Value

set_option maxRecDepth 16384

noncomputable section

open scoped BigOperators

namespace Cert.AttnArray

open Cert.KernelIdeal Cert.KernelIdeal.Gen Cert.Attn
open Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

/-- An array read at an index, typed as an extended real. -/
abbrev rd (s : Shape) (f : s.Idx → EReal) (i : s.Idx) : EReal := f i

theorem hz4 : (![0, 0, 0, 0] : Fin 4 → Nat) = fun _ => 0 := funext fun a => by fin_cases a <;> rfl

/-- The printed index maps over the grid: the three input blocks and the result block all sit at (batch, head, 0, 0) of the point. -/
theorem idx_facts : ∀ t : Fin cfg1.N,
    win1_0.index t (0 : Fin 4) = win1_3.index t (0 : Fin 4) ∧ win1_0.index t (1 : Fin 4) = win1_3.index t (1 : Fin 4)
    ∧ win1_0.index t (2 : Fin 4) = 0 ∧ win1_0.index t (3 : Fin 4) = 0
    ∧ win1_1.index t (0 : Fin 4) = win1_3.index t (0 : Fin 4) ∧ win1_1.index t (1 : Fin 4) = win1_3.index t (1 : Fin 4)
    ∧ win1_1.index t (2 : Fin 4) = 0 ∧ win1_1.index t (3 : Fin 4) = 0
    ∧ win1_2.index t (0 : Fin 4) = win1_3.index t (0 : Fin 4) ∧ win1_2.index t (1 : Fin 4) = win1_3.index t (1 : Fin 4)
    ∧ win1_2.index t (2 : Fin 4) = 0 ∧ win1_2.index t (3 : Fin 4) = 0
    ∧ win1_3.index t (2 : Fin 4) = 0 ∧ win1_3.index t (3 : Fin 4) = 0
    ∧ win1_3.index t (0 : Fin 4) < 8 ∧ win1_3.index t (1 : Fin 4) < 8 :=
  (by decide +kernel : ∀ t : Fin grid1.N, _)

/-- Every (batch, head) pair is some point's block. -/
theorem idx_onto : ∀ (q0 : Fin 8) (q1 : Fin 8), ∃ t : Fin cfg1.N, win1_3.index t (0 : Fin 4) = q0.val ∧ win1_3.index t (1 : Fin 4) = q1.val :=
  (by decide +kernel : ∀ (q0 : Fin 8) (q1 : Fin 8), ∃ t : Fin grid1.N, win1_3.index t (0 : Fin 4) = q0.val ∧ win1_3.index t (1 : Fin 4) = q1.val)

/-- A block of one of the three inputs, read at (0, 0, i, d), is the array at (batch, head, i, d) of the result block's position. -/
theorem emb_in (t : Fin cfg1.N) (i : Fin 1024) (d : Fin 64) (i' : Fin 1024) (d' : Fin 64) :
    ((cfg1.win 0).blk t).view.emb (ix4 (0 : Fin 1) (0 : Fin 1) i' d')
        = ix4 ((((cfg1.win 3).blk t).view.emb (ix4 (0 : Fin 1) (0 : Fin 1) i d)) 0) ((((cfg1.win 3).blk t).view.emb (ix4 (0 : Fin 1) (0 : Fin 1) i d)) 1) i' d'
    ∧ ((cfg1.win 1).blk t).view.emb (ix4 (0 : Fin 1) (0 : Fin 1) i' d')
        = ix4 ((((cfg1.win 3).blk t).view.emb (ix4 (0 : Fin 1) (0 : Fin 1) i d)) 0) ((((cfg1.win 3).blk t).view.emb (ix4 (0 : Fin 1) (0 : Fin 1) i d)) 1) i' d'
    ∧ ((cfg1.win 2).blk t).view.emb (ix4 (0 : Fin 1) (0 : Fin 1) i' d')
        = ix4 ((((cfg1.win 3).blk t).view.emb (ix4 (0 : Fin 1) (0 : Fin 1) i d)) 0) ((((cfg1.win 3).blk t).view.emb (ix4 (0 : Fin 1) (0 : Fin 1) i d)) 1) i' d' := by
  obtain ⟨a0, a1, a2, a3, b0, b1, b2, b3, c0, c1, c2, c3, o2, o3, hl0, hl1⟩ := idx_facts t
  refine ⟨?_, ?_, ?_⟩ <;> (funext a; apply Fin.ext)
  · match a with
    | ⟨0, _⟩ => show win1_0.index t (0 : Fin 4) * 1 + 1 * 0 = win1_3.index t (0 : Fin 4) * 1 + 1 * 0; omega
    | ⟨1, _⟩ => show win1_0.index t (1 : Fin 4) * 1 + 1 * 0 = win1_3.index t (1 : Fin 4) * 1 + 1 * 0; omega
    | ⟨2, _⟩ => show win1_0.index t (2 : Fin 4) * 1024 + 1 * i'.val = i'.val; omega
    | ⟨3, _⟩ => show win1_0.index t (3 : Fin 4) * 64 + 1 * d'.val = d'.val; omega
  · match a with
    | ⟨0, _⟩ => show win1_1.index t (0 : Fin 4) * 1 + 1 * 0 = win1_3.index t (0 : Fin 4) * 1 + 1 * 0; omega
    | ⟨1, _⟩ => show win1_1.index t (1 : Fin 4) * 1 + 1 * 0 = win1_3.index t (1 : Fin 4) * 1 + 1 * 0; omega
    | ⟨2, _⟩ => show win1_1.index t (2 : Fin 4) * 1024 + 1 * i'.val = i'.val; omega
    | ⟨3, _⟩ => show win1_1.index t (3 : Fin 4) * 64 + 1 * d'.val = d'.val; omega
  · match a with
    | ⟨0, _⟩ => show win1_2.index t (0 : Fin 4) * 1 + 1 * 0 = win1_3.index t (0 : Fin 4) * 1 + 1 * 0; omega
    | ⟨1, _⟩ => show win1_2.index t (1 : Fin 4) * 1 + 1 * 0 = win1_3.index t (1 : Fin 4) * 1 + 1 * 0; omega
    | ⟨2, _⟩ => show win1_2.index t (2 : Fin 4) * 1024 + 1 * i'.val = i'.val; omega
    | ⟨3, _⟩ => show win1_2.index t (3 : Fin 4) * 64 + 1 * d'.val = d'.val; omega

/-- The last two coordinates of the result block's position at (0, 0, i, d) are `i` and `d`. -/
theorem emb_out (t : Fin cfg1.N) (i : Fin 1024) (d : Fin 64) :
    (((cfg1.win 3).blk t).view.emb (ix4 (0 : Fin 1) (0 : Fin 1) i d)) 2 = i
    ∧ (((cfg1.win 3).blk t).view.emb (ix4 (0 : Fin 1) (0 : Fin 1) i d)) 3 = d := by
  obtain ⟨a0, a1, a2, a3, b0, b1, b2, b3, c0, c1, c2, c3, o2, o3, hl0, hl1⟩ := idx_facts t
  refine ⟨Fin.ext ?_, Fin.ext ?_⟩
  · show win1_3.index t (2 : Fin 4) * 1024 + 1 * i.val = i.val; omega
  · show win1_3.index t (3 : Fin 4) * 64 + 1 * d.val = d.val; omega

/-- What point `t` writes back is block `t` of `attend` of the three arrays as the launch finds them. -/
theorem flushed_eq (c : Dev nD) (t : Fin cfg1.N) :
    (dat1 V c).flushed 3 t = ((cfg1.win 3).blk t).view.read (Elt Ideal) (attend (V c main_v2) (V c main_v4) (V c main_v6)) := by
  show (cfg1.win 3).cut (grid1.coords t) ((dat1 V c).after 3 t) = _
  rw [after1_3]
  unfold out1_3
  rw [View.canon_unit_zero hz4]
  simp only [View.ld_unit_zero (S := S1x1x1024x64) hz4]
  funext j
  obtain ⟨u0, u1, i, d, rfl⟩ : ∃ (u0 u1 : Fin 1) (i : Fin 1024) (d : Fin 64), j = ix4 u0 u1 i d := ⟨j 0, j 1, j 2, j 3, eq_ix4 j⟩
  obtain rfl : u0 = 0 := Subsingleton.elim _ _
  obtain rfl : u1 = 0 := Subsingleton.elim _ _
  refine (Cert.Payloads.pay_attend _ _ _ i d).trans ?_
  show headOut (fun i' d' => rd S8x8x1024x64 (V c main_v2) (((cfg1.win 0).blk t).view.emb (ix4 (0 : Fin 1) (0 : Fin 1) i' d')))
        (fun j' d' => rd S8x8x1024x64 (V c main_v4) (((cfg1.win 1).blk t).view.emb (ix4 (0 : Fin 1) (0 : Fin 1) j' d')))
        (fun j' d' => rd S8x8x1024x64 (V c main_v6) (((cfg1.win 2).blk t).view.emb (ix4 (0 : Fin 1) (0 : Fin 1) j' d'))) i d
      = attend (V c main_v2) (V c main_v4) (V c main_v6) (((cfg1.win 3).blk t).view.emb (ix4 (0 : Fin 1) (0 : Fin 1) i d))
  unfold attend rd
  have hq : (fun (i' : Fin 1024) (d' : Fin 64) => (V c main_v2 : S8x8x1024x64.Idx → EReal) (((cfg1.win 0).blk t).view.emb (ix4 (0 : Fin 1) (0 : Fin 1) i' d')))
      = fun i' d' => (V c main_v2 : S8x8x1024x64.Idx → EReal) (ix4 ((((cfg1.win 3).blk t).view.emb (ix4 (0 : Fin 1) (0 : Fin 1) i d)) 0) ((((cfg1.win 3).blk t).view.emb (ix4 (0 : Fin 1) (0 : Fin 1) i d)) 1) i' d') :=
    funext fun i' => funext fun d' => congrArg _ (emb_in t i d i' d').1
  have hk : (fun (i' : Fin 1024) (d' : Fin 64) => (V c main_v4 : S8x8x1024x64.Idx → EReal) (((cfg1.win 1).blk t).view.emb (ix4 (0 : Fin 1) (0 : Fin 1) i' d')))
      = fun i' d' => (V c main_v4 : S8x8x1024x64.Idx → EReal) (ix4 ((((cfg1.win 3).blk t).view.emb (ix4 (0 : Fin 1) (0 : Fin 1) i d)) 0) ((((cfg1.win 3).blk t).view.emb (ix4 (0 : Fin 1) (0 : Fin 1) i d)) 1) i' d') :=
    funext fun i' => funext fun d' => congrArg _ (emb_in t i d i' d').2.1
  have hv : (fun (i' : Fin 1024) (d' : Fin 64) => (V c main_v6 : S8x8x1024x64.Idx → EReal) (((cfg1.win 2).blk t).view.emb (ix4 (0 : Fin 1) (0 : Fin 1) i' d')))
      = fun i' d' => (V c main_v6 : S8x8x1024x64.Idx → EReal) (ix4 ((((cfg1.win 3).blk t).view.emb (ix4 (0 : Fin 1) (0 : Fin 1) i d)) 0) ((((cfg1.win 3).blk t).view.emb (ix4 (0 : Fin 1) (0 : Fin 1) i d)) 1) i' d') :=
    funext fun i' => funext fun d' => congrArg _ (emb_in t i d i' d').2.2
  refine (congrArg₂ (fun f g => headOut f g _ i d) hq hk).trans ?_
  refine (congrArg (fun g => headOut _ _ g i d) hv).trans ?_
  exact (congrArg₂ (fun a b => headOut _ _ _ a b) (emb_out t i d).1 (emb_out t i d).2).symm

/-- An index of the array is in point `t`'s block iff each coordinate is in the block's range on its axis. -/
theorem mem_blk (t : Fin cfg1.N) (n : S8x8x1024x64.Idx) :
    n ∈ ((cfg1.win 3).blk t).view.set ↔ ∀ a : Fin 4, win1_3.index t a * S1x1x1024x64.size a ≤ (n a).val ∧ (n a).val < win1_3.index t a * S1x1x1024x64.size a + S1x1x1024x64.size a := by
  show n ∈ ((View.whole main_v7).slice (win1_3.rect t)).set ↔ _
  rw [View.set_slice_whole, Rect.mem_set_unit]
  exact Iff.rfl

/-- The blocks tile the array: entry (b, h, i, d) is in the block of the point (b, h). -/
theorem cover (n : S8x8x1024x64.Idx) : ∃ t : Fin cfg1.N, (cfg1.win 3).flush t = true ∧ n ∈ ((cfg1.win 3).blk t).view.set := by
  have hn0 : (n 0).val < 8 := (n 0).isLt
  have hn1 : (n 1).val < 8 := (n 1).isLt
  have hn2 : (n 2).val < 1024 := (n 2).isLt
  have hn3 : (n 3).val < 64 := (n 3).isLt
  obtain ⟨t, ht0, ht1⟩ := idx_onto ⟨(n 0).val, hn0⟩ ⟨(n 1).val, hn1⟩
  have q0 : win1_3.index t (0 : Fin 4) = (n 0).val := ht0
  have q1 : win1_3.index t (1 : Fin 4) = (n 1).val := ht1
  obtain ⟨a0, a1, a2, a3, b0, b1, b2, b3, c0, c1, c2, c3, o2, o3, hl0, hl1⟩ := idx_facts t
  refine ⟨t, flush1_3 t, ?_⟩
  rw [mem_blk]
  intro a
  match a with
  | ⟨0, _⟩ => show win1_3.index t (0 : Fin 4) * 1 ≤ (n 0).val ∧ (n 0).val < win1_3.index t (0 : Fin 4) * 1 + 1; omega
  | ⟨1, _⟩ => show win1_3.index t (1 : Fin 4) * 1 ≤ (n 1).val ∧ (n 1).val < win1_3.index t (1 : Fin 4) * 1 + 1; omega
  | ⟨2, _⟩ => show win1_3.index t (2 : Fin 4) * 1024 ≤ (n 2).val ∧ (n 2).val < win1_3.index t (2 : Fin 4) * 1024 + 1024; omega
  | ⟨3, _⟩ => show win1_3.index t (3 : Fin 4) * 64 ≤ (n 3).val ∧ (n 3).val < win1_3.index t (3 : Fin 4) * 64 + 64; omega

/-- The result array after the launch: `attend` of the three input arrays as the launch finds them. -/
theorem final (c : Dev nD) : (dat1 V c).arrAt 3 cfg1.N = attend (V c main_v2) (V c main_v4) (V c main_v6) :=
  (dat1 V c).arrAt_eq_of_cover 3 _ (fun t _ => flushed_eq V c t) cover

end Cert.AttnArray

end
-- ==== Proof.OutArray.lean ====
/-
  The third launch, from its blocks to its whole result array.

  Grid point `t` (one per batch) reads block (t, 0, 0) of the merged heads — all 1024 rows of batch `t` —, the whole weight
  matrix and the whole bias row, and writes block (t, 0, 0) of the result. An entry (b, n, e) of the result array therefore lies
  in point `b`'s block, at (0, n, e), and holds the inner product of row (b, n) of the merged heads with row `e` of the weights,
  plus the bias entry `e`. The eight blocks tile the array, so the array after the launch is that one function of the three
  input arrays as the launch finds them.
-/
import proofs.«131226_j70806830842616_1_alg».proof.Proof.Gen.KernelIdeal.Frame
import proofs.«131226_j70806830842616_1_alg».proof.Proof.Payloads
import Idealize.ShloMosaic.Lib.Pipeline.Value

set_option maxRecDepth 16384

noncomputable section

open scoped BigOperators

namespace Cert.OutArray

open Cert.KernelIdeal Cert.KernelIdeal.Gen
open Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

/-- The result array of the third launch as a function of its three input arrays: the linear map with the bias row `[1, 512]`. -/
def outOf (y : S8x1024x512.Idx → EReal) (w : S512x512.Idx → EReal) (b2 : S1x512.Idx → EReal) : S8x1024x512.Idx → EReal :=
  fun i => (∑ k : Fin 512, y (ix3 (i 0) (i 1) k) * w (ix2 (i 2) k)) + b2 (ix2 (0 : Fin 1) (i 2))

/-- An array read at an index, typed as an extended real. -/
abbrev rd (s : Shape) (f : s.Idx → EReal) (i : s.Idx) : EReal := f i

theorem hz3 : (![0, 0, 0] : Fin 3 → Nat) = fun _ => 0 := funext fun a => by fin_cases a <;> rfl
theorem hz2 : (![0, 0] : Fin 2 → Nat) = fun _ => 0 := funext fun a => by fin_cases a <;> rfl

/-- The printed index maps over the grid: the merged-heads block and the result block move together along the batch axis and
    sit at zero elsewhere; the weights and the bias are always block (0, 0). -/
theorem idx_facts : ∀ t : Fin cfg2.N, win2_0.index t (0 : Fin 3) = win2_3.index t (0 : Fin 3)
    ∧ win2_0.index t (1 : Fin 3) = 0 ∧ win2_0.index t (2 : Fin 3) = 0
    ∧ win2_3.index t (1 : Fin 3) = 0 ∧ win2_3.index t (2 : Fin 3) = 0
    ∧ win2_1.index t (0 : Fin 2) = 0 ∧ win2_1.index t (1 : Fin 2) = 0
    ∧ win2_2.index t (0 : Fin 2) = 0 ∧ win2_2.index t (1 : Fin 2) = 0
    ∧ win2_3.index t (0 : Fin 3) < 8 :=
  (by decide +kernel : ∀ t : Fin grid2.N, _)

/-- Every batch is some point's block. -/
theorem idx_onto : ∀ q0 : Fin 8, ∃ t : Fin cfg2.N, win2_3.index t (0 : Fin 3) = q0.val :=
  (by decide +kernel : ∀ q0 : Fin 8, ∃ t : Fin grid2.N, win2_3.index t (0 : Fin 3) = q0.val)

/-- What point `t` writes back is block `t` of `outOf` of the three arrays as the launch finds them. -/
theorem flushed_eq (c : Dev nD) (t : Fin cfg2.N) :
    (dat2 V c).flushed 3 t = ((cfg2.win 3).blk t).view.read (Elt Ideal)
      (outOf (V c main_v9) (V c main_arg5) (V c main_v10)) := by
  show (cfg2.win 3).cut (grid2.coords t) ((dat2 V c).after 3 t) = _
  rw [after2_3]
  unfold out2_3
  rw [View.canon_unit_zero hz3]
  simp only [View.ld_unit_zero (S := S1x1024x512) hz3, View.ld_unit_zero (S := S512x512) hz2, View.ld_unit_zero (S := S1x512) hz2]
  obtain ⟨e0, e1, e2, e3, e4, e5, e6, e7, e8, e9⟩ := idx_facts t
  funext j
  obtain ⟨u, n, e, rfl⟩ : ∃ (u : Fin 1) (n : Fin 1024) (e : Fin 512), j = ix3 u n e := ⟨j 0, j 1, j 2, eq_ix3 j⟩
  obtain rfl : u = 0 := Subsingleton.elim _ _
  refine (Cert.Payloads.pay_out _ _ _ n e).trans ?_
  show (∑ k : Fin 512, rd S8x1024x512 (V c main_v9) (((cfg2.win 0).blk t).view.emb (ix3 (0 : Fin 1) n k))
          * rd S512x512 (V c main_arg5) (((cfg2.win 1).blk t).view.emb (ix2 e k)))
        + rd S1x512 (V c main_v10) (((cfg2.win 2).blk t).view.emb (ix2 (0 : Fin 1) e))
      = outOf (V c main_v9) (V c main_arg5) (V c main_v10) (((cfg2.win 3).blk t).view.emb (ix3 (0 : Fin 1) n e))
  unfold outOf rd
  have hy : ∀ k : Fin 512, ((cfg2.win 0).blk t).view.emb (ix3 (0 : Fin 1) n k)
      = ix3 ((((cfg2.win 3).blk t).view.emb (ix3 (0 : Fin 1) n e)) 0) ((((cfg2.win 3).blk t).view.emb (ix3 (0 : Fin 1) n e)) 1) k := by
    intro k; funext a; apply Fin.ext
    match a with
    | ⟨0, _⟩ => show win2_0.index t (0 : Fin 3) * 1 + 1 * 0 = win2_3.index t (0 : Fin 3) * 1 + 1 * 0; omega
    | ⟨1, _⟩ => show win2_0.index t (1 : Fin 3) * 1024 + 1 * n.val = win2_3.index t (1 : Fin 3) * 1024 + 1 * n.val; omega
    | ⟨2, _⟩ => show win2_0.index t (2 : Fin 3) * 512 + 1 * k.val = k.val; omega
  have hw : ∀ k : Fin 512, ((cfg2.win 1).blk t).view.emb (ix2 e k)
      = ix2 ((((cfg2.win 3).blk t).view.emb (ix3 (0 : Fin 1) n e)) 2) k := by
    intro k; funext a; apply Fin.ext
    match a with
    | ⟨0, _⟩ => show win2_1.index t (0 : Fin 2) * 512 + 1 * e.val = win2_3.index t (2 : Fin 3) * 512 + 1 * e.val; omega
    | ⟨1, _⟩ => show win2_1.index t (1 : Fin 2) * 512 + 1 * k.val = k.val; omega
  have hb : ((cfg2.win 2).blk t).view.emb (ix2 (0 : Fin 1) e)
      = ix2 (0 : Fin 1) ((((cfg2.win 3).blk t).view.emb (ix3 (0 : Fin 1) n e)) 2) := by
    funext a; apply Fin.ext
    match a with
    | ⟨0, _⟩ => show win2_2.index t (0 : Fin 2) * 1 + 1 * 0 = 0; omega
    | ⟨1, _⟩ => show win2_2.index t (1 : Fin 2) * 512 + 1 * e.val = win2_3.index t (2 : Fin 3) * 512 + 1 * e.val; omega
  rw [hb]
  refine congrArg (· + _) (Finset.sum_congr rfl fun k _ => ?_)
  rw [hy k, hw k] <;> rfl

/-- An index of the array is in point `t`'s block iff each coordinate is in the block's range on its axis. -/
theorem mem_blk (t : Fin cfg2.N) (i : S8x1024x512.Idx) :
    i ∈ ((cfg2.win 3).blk t).view.set ↔ ∀ a : Fin 3, win2_3.index t a * S1x1024x512.size a ≤ (i a).val ∧ (i a).val < win2_3.index t a * S1x1024x512.size a + S1x1024x512.size a := by
  show i ∈ ((View.whole main_v11).slice (win2_3.rect t)).set ↔ _
  rw [View.set_slice_whole, Rect.mem_set_unit]
  exact Iff.rfl

/-- The blocks tile the array: entry (b, n, e) is in the block of the point whose batch is `b`. -/
theorem cover (i : S8x1024x512.Idx) : ∃ t : Fin cfg2.N, (cfg2.win 3).flush t = true ∧ i ∈ ((cfg2.win 3).blk t).view.set := by
  have hi0 : (i 0).val < 8 := (i 0).isLt
  have hi1 : (i 1).val < 1024 := (i 1).isLt
  have hi2 : (i 2).val < 512 := (i 2).isLt
  obtain ⟨t, ht⟩ := idx_onto ⟨(i 0).val, hi0⟩
  have q0 : win2_3.index t (0 : Fin 3) = (i 0).val := ht
  obtain ⟨e0, e1, e2, e3, e4, e5, e6, e7, e8, e9⟩ := idx_facts t
  refine ⟨t, flush2_3 t, ?_⟩
  rw [mem_blk]
  intro a
  match a with
  | ⟨0, _⟩ => show win2_3.index t (0 : Fin 3) * 1 ≤ (i 0).val ∧ (i 0).val < win2_3.index t (0 : Fin 3) * 1 + 1; omega
  | ⟨1, _⟩ => show win2_3.index t (1 : Fin 3) * 1024 ≤ (i 1).val ∧ (i 1).val < win2_3.index t (1 : Fin 3) * 1024 + 1024; omega
  | ⟨2, _⟩ => show win2_3.index t (2 : Fin 3) * 512 ≤ (i 2).val ∧ (i 2).val < win2_3.index t (2 : Fin 3) * 512 + 512; omega

/-- The result array after the launch: `outOf` of the three input arrays as the launch finds them. -/
theorem final (c : Dev nD) : (dat2 V c).arrAt 3 cfg2.N = outOf (V c main_v9) (V c main_arg5) (V c main_v10) :=
  (dat2 V c).arrAt_eq_of_cover 3 _ (fun t _ => flushed_eq V c t) cover

end Cert.OutArray

end
-- ==== Proof.KernelValue.lean ====
/-
  The array the idealized kernel returns, as one function of its seven arguments.

  The run's final contents are a fold through five segments. Read backwards from the result buffer: the third launch leaves the
  linear map with bias of (the merged heads, Wo, the bias as a [1, 512] row); the merged heads are the host's transpose and reshape of
  the second launch's result; the second launch leaves `attend` of its three inputs; those are the host's reshape and transpose
  (the split into heads) of the first launch's three results; and the first launch leaves the three linear maps of the arguments.
  No segment writes an argument, so wherever a later segment reads an argument it reads the launch contents.
-/
import proofs.«131226_j70806830842616_1_alg».proof.Proof.Gen.KernelIdeal.Frame
import proofs.«131226_j70806830842616_1_alg».proof.Proof.ProjArray
import proofs.«131226_j70806830842616_1_alg».proof.Proof.AttnArray
import proofs.«131226_j70806830842616_1_alg».proof.Proof.OutArray
import Idealize.ShloMosaic.Lib.StableHlo.Run

set_option maxRecDepth 16384

noncomputable section

namespace Cert.KernelValue

open Cert.KernelIdeal Cert.KernelIdeal.Gen Cert.Attn
open Idealize.ShloMosaic Idealize.ShloMosaic.TcCoe Idealize.ShloMosaic.StableHlo Idealize.SL.Sem

/-- The split into heads: [8, 1024, 512] reshaped to [8, 1024, 8, 64] and the two middle axes swapped. -/
def splitHeads (x : S8x1024x512.Idx → EReal) : S8x8x1024x64.Idx → EReal :=
  transpose S8x8x1024x64 [0, 2, 1, 3] (shapeCast S8x1024x8x64 x shapeCasts_S8x1024x512_S8x1024x8x64)
    transposes_S8x1024x8x64_S8x8x1024x64_0_2_1_3

/-- The merge of heads: the two middle axes swapped back and [8, 1024, 8, 64] reshaped to [8, 1024, 512]. -/
def mergeHeads (o : S8x8x1024x64.Idx → EReal) : S8x1024x512.Idx → EReal :=
  shapeCast S8x1024x512 (transpose S8x1024x8x64 [0, 2, 1, 3] o transposes_S8x8x1024x64_S8x1024x8x64_0_2_1_3)
    shapeCasts_S8x1024x8x64_S8x1024x512

/-- The kernel's result as a function of the seven argument arrays. -/
def result (x0 x1 : S8x1024x512.Idx → EReal) (x2 x3 x4 x5 : S512x512.Idx → EReal) (x6 : S512.Idx → EReal) :
    S8x1024x512.Idx → EReal :=
  Cert.OutArray.outOf
    (mergeHeads (attend (splitHeads (linear x0 x2)) (splitHeads (linear x1 x3)) (splitHeads (linear x1 x4))))
    x5 (shapeCast S1x512 x6 shapeCasts_S512_S1x512)

variable (m : (ℓ : Loc nD τ sig) → Buf (Elt Ideal) ℓ) (ρ : Dev nD → PrngReg)

/-! ## After the first launch -/

theorem W1_q (c : Dev nD) : W1 m ρ c (Proc.devRef .tc main_v0_0)
    = linear (m ((c : Thread nD τ).loc main_arg0)) (m ((c : Thread nD τ).loc main_arg2)) :=
  (W1_arr m ρ c 5).trans (Cert.ProjArray.final_q (V0 m ρ) c)
theorem W1_k (c : Dev nD) : W1 m ρ c (Proc.devRef .tc main_v0_1)
    = linear (m ((c : Thread nD τ).loc main_arg1)) (m ((c : Thread nD τ).loc main_arg3)) :=
  (W1_arr m ρ c 6).trans (Cert.ProjArray.final_k (V0 m ρ) c)
theorem W1_v (c : Dev nD) : W1 m ρ c (Proc.devRef .tc main_v0_2)
    = linear (m ((c : Thread nD τ).loc main_arg1)) (m ((c : Thread nD τ).loc main_arg4)) :=
  (W1_arr m ρ c 7).trans (Cert.ProjArray.final_v (V0 m ρ) c)
theorem W1_arg5 (c : Dev nD) : W1 m ρ c (Proc.devRef .tc main_arg5) = m ((c : Thread nD τ).loc main_arg5) :=
  W1_of_ne m ρ c main_arg5 (by decide)
theorem W1_arg6 (c : Dev nD) : W1 m ρ c (Proc.devRef .tc main_arg6) = m ((c : Thread nD τ).loc main_arg6) :=
  W1_of_ne m ρ c main_arg6 (by decide)

/-! ## After the host's split into heads -/

theorem W2_q (c : Dev nD) : W2 m ρ c (Proc.devRef .tc main_v2) = splitHeads (W1 m ρ c (Proc.devRef .tc main_v0_0)) := by
  show StableHlo.after hostOps1 (W1 m ρ c) (Proc.devRef .tc main_v2) = _
  after_results
  rfl
theorem W2_k (c : Dev nD) : W2 m ρ c (Proc.devRef .tc main_v4) = splitHeads (W1 m ρ c (Proc.devRef .tc main_v0_1)) := by
  show StableHlo.after hostOps1 (W1 m ρ c) (Proc.devRef .tc main_v4) = _
  after_results
  rfl
theorem W2_v (c : Dev nD) : W2 m ρ c (Proc.devRef .tc main_v6) = splitHeads (W1 m ρ c (Proc.devRef .tc main_v0_2)) := by
  show StableHlo.after hostOps1 (W1 m ρ c) (Proc.devRef .tc main_v6) = _
  after_results
  rfl
theorem W2_arg5 (c : Dev nD) : W2 m ρ c (Proc.devRef .tc main_arg5) = W1 m ρ c (Proc.devRef .tc main_arg5) := by
  show StableHlo.after hostOps1 (W1 m ρ c) (Proc.devRef .tc main_arg5) = _
  after_results
theorem W2_arg6 (c : Dev nD) : W2 m ρ c (Proc.devRef .tc main_arg6) = W1 m ρ c (Proc.devRef .tc main_arg6) := by
  show StableHlo.after hostOps1 (W1 m ρ c) (Proc.devRef .tc main_arg6) = _
  after_results

/-! ## After the second launch -/

theorem W3_o (c : Dev nD) : W3 m ρ c (Proc.devRef .tc main_v7)
    = attend (W2 m ρ c (Proc.devRef .tc main_v2)) (W2 m ρ c (Proc.devRef .tc main_v4)) (W2 m ρ c (Proc.devRef .tc main_v6)) :=
  (W3_arr m ρ c 3).trans (Cert.AttnArray.final (V2 m ρ) c)
theorem W3_arg5 (c : Dev nD) : W3 m ρ c (Proc.devRef .tc main_arg5) = W2 m ρ c (Proc.devRef .tc main_arg5) :=
  W3_of_ne m ρ c main_arg5 (by decide)
theorem W3_arg6 (c : Dev nD) : W3 m ρ c (Proc.devRef .tc main_arg6) = W2 m ρ c (Proc.devRef .tc main_arg6) :=
  W3_of_ne m ρ c main_arg6 (by decide)

/-! ## After the host's merge of heads and the bias row's reshape -/

theorem W4_y (c : Dev nD) : W4 m ρ c (Proc.devRef .tc main_v9) = mergeHeads (W3 m ρ c (Proc.devRef .tc main_v7)) := by
  show StableHlo.after hostOps2 (W3 m ρ c) (Proc.devRef .tc main_v9) = _
  after_results
  rfl
theorem W4_b (c : Dev nD) : W4 m ρ c (Proc.devRef .tc main_v10)
    = shapeCast S1x512 (W3 m ρ c (Proc.devRef .tc main_arg6)) shapeCasts_S512_S1x512 := by
  show StableHlo.after hostOps2 (W3 m ρ c) (Proc.devRef .tc main_v10) = _
  after_results
  rfl
theorem W4_arg5 (c : Dev nD) : W4 m ρ c (Proc.devRef .tc main_arg5) = W3 m ρ c (Proc.devRef .tc main_arg5) := by
  show StableHlo.after hostOps2 (W3 m ρ c) (Proc.devRef .tc main_arg5) = _
  after_results

/-! ## After the third launch: the result -/

/-- The result buffer ends holding `result` of the seven arguments as launched. -/
theorem value (c : Dev nD) : W5 m ρ c (Proc.devRef .tc main_v11)
    = result (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5))
        (m ((c : Thread nD τ).loc main_arg6)) := by
  refine (W5_arr m ρ c 3).trans ((Cert.OutArray.final (V4 m ρ) c).trans ?_)
  show Cert.OutArray.outOf (W4 m ρ c (Proc.devRef .tc main_v9)) (W4 m ρ c (Proc.devRef .tc main_arg5)) (W4 m ρ c (Proc.devRef .tc main_v10)) = _
  rw [W4_y, W4_b, W4_arg5, W3_o, W3_arg5, W3_arg6, W2_q, W2_k, W2_v, W2_arg5, W2_arg6, W1_q, W1_k, W1_v, W1_arg5, W1_arg6]
  rfl

end Cert.KernelValue

end
-- ==== Proof.LibHostMax4.lean ====
/-
  A host reduction with a maximum body, started from the bottom element, over the LAST axis of a rank-4 array [a, b, c, w],
  read at an index over the extended reals: at (p, q, r) it is the supremum of the `w` entries (p, q, r, ·). The reduction is a
  fold of `max` over the reduced axis's coordinates in some order, and a fold of `max` from the bottom element over a finite
  family is the family's supremum whatever the order. (The rank-2 and rank-3 forms are in the companion module.)
-/
import Idealize.ShloMosaic.Lib.ValueIdx
import Idealize.ShloMosaic.Lib.Pipeline.Value
import Idealize.ShloMosaic.PureOps.Ideal.Laws

noncomputable section

namespace HostMax4

open Idealize.ShloMosaic Idealize.ShloMosaic.ValueIdx

/-- Position (p, q, r) of an [a, b, c, w] array with coordinate `k` put back on the reduced (last) axis is (p, q, r, k). -/
theorem lift_last {a b c w : ℕ} (h : (⟨4, ![a, b, c, w]⟩ : Shape).Reduces [3] (⟨3, ![a, b, c]⟩ : Shape))
    (p : Fin a) (q : Fin b) (r : Fin c) (k : Fin ((⟨4, ![a, b, c, w]⟩ : Shape).size 3)) :
    h.lift (ix3 p q r) k = ix4 p q r (⟨k.val, k.isLt⟩ : Fin w) := by
  funext d; apply Fin.ext
  fin_cases d <;> rfl

/-- From −∞ the host's maximum over the last axis of an [a, b, c, w] array, at (p, q, r), is the supremum of that row. -/
theorem reduce_last {a b c w : ℕ} (v : FVec Ideal ⟨4, ![a, b, c, w]⟩ .f32) (init : (⟨0, ![]⟩ : Shape).Idx → Ideal .f32)
    (hinit : ∀ i, init i = (⊥ : EReal))
    (h' : (⟨4, ![a, b, c, w]⟩ : Shape).ReducesTo [3] (⟨3, ![a, b, c]⟩ : Shape))
    (h : (⟨4, ![a, b, c, w]⟩ : Shape).Reduces [3] (⟨3, ![a, b, c]⟩ : Shape))
    (hu : 0 < (⟨0, ![]⟩ : Shape).numel) (p : Fin a) (q : Fin b) (r : Fin c) :
    Host.reduce FloatOps.maximumf v init h' hu (ix3 p q r) = (Finset.univ : Finset (Fin w)).sup fun k => v (ix4 p q r k) := by
  rw [Host.reduce_eq_fold_single FloatOps.maximumf v init h' h hu, hinit]
  have hf : (v ∘ h.lift (ix3 p q r)) = fun k : Fin w => v (ix4 p q r k) :=
    funext fun k => congrArg v (lift_last h p q r k)
  exact congrArg (fun f => Finset.fold max (⊥ : EReal) f (Finset.univ : Finset (Fin w))) hf

end HostMax4

end
-- ==== Proof.LibHostMaxMid.lean ====
/-
  A host reduction with a maximum body, started from the bottom element, over the THIRD axis of a rank-4 array [a, b, c, w], read
  at an index over the extended reals: at (p, q, r) it is the supremum of the `c` entries (p, q, ·, r). The reduction is a fold of
  `max` over the reduced axis's coordinates in some order, and a fold of `max` from the bottom element over a finite family is the
  family's supremum whatever the order. (The sibling of the last-axis form: a softmax taken over the query axis of [batch, head,
  query, key] scores reduces this axis.)
-/
import Idealize.ShloMosaic.Lib.ValueIdx
import Idealize.ShloMosaic.Lib.Pipeline.Value
import Idealize.ShloMosaic.PureOps.Ideal.Laws

noncomputable section

namespace HostMaxMid

open Idealize.ShloMosaic Idealize.ShloMosaic.ValueIdx

/-- Position (p, q, r) of the result with coordinate `k` put back on the reduced (third) axis of an [a, b, c, w] array
    is (p, q, k, r). -/
theorem lift_ax2 {a b c w : ℕ} (h : (⟨4, ![a, b, c, w]⟩ : Shape).Reduces [2] (⟨3, ![a, b, w]⟩ : Shape))
    (p : Fin a) (q : Fin b) (r : Fin w) (k : Fin ((⟨4, ![a, b, c, w]⟩ : Shape).size 2)) :
    h.lift (ix3 p q r) k = ix4 p q (⟨k.val, k.isLt⟩ : Fin c) r := by
  funext d; apply Fin.ext
  fin_cases d <;> rfl

/-- From −∞ the maximum over the third axis of an [a, b, c, w] array, at (p, q, r), is the supremum of the entries
    (p, q, ·, r): a fold of `max` from the bottom element over a finite family is the family's supremum. -/
theorem reduce_ax2 {a b c w : ℕ} (v : FVec Ideal ⟨4, ![a, b, c, w]⟩ .f32) (init : (⟨0, ![]⟩ : Shape).Idx → Ideal .f32)
    (hinit : ∀ i, init i = (⊥ : EReal))
    (h' : (⟨4, ![a, b, c, w]⟩ : Shape).ReducesTo [2] (⟨3, ![a, b, w]⟩ : Shape))
    (h : (⟨4, ![a, b, c, w]⟩ : Shape).Reduces [2] (⟨3, ![a, b, w]⟩ : Shape))
    (hu : 0 < (⟨0, ![]⟩ : Shape).numel) (p : Fin a) (q : Fin b) (r : Fin w) :
    Host.reduce FloatOps.maximumf v init h' hu (ix3 p q r) = (Finset.univ : Finset (Fin c)).sup fun k => v (ix4 p q k r) := by
  rw [Host.reduce_eq_fold_single FloatOps.maximumf v init h' h hu, hinit]
  have hf : (v ∘ h.lift (ix3 p q r)) = fun k : Fin c => v (ix4 p q k r) :=
    funext fun k => congrArg v (lift_ax2 h p q r k)
  exact congrArg (fun f => Finset.fold max (⊥ : EReal) f (Finset.univ : Finset (Fin c))) hf

end HostMaxMid

end
-- ==== Proof.RefRead.lean ====
/-
  The reference's stages, read index by index, are the formulas of the specification.
-/
import proofs.«131226_j70806830842616_1_alg».proof.Proof.Gen.ReferenceIdeal.Read
import proofs.«131226_j70806830842616_1_alg».proof.Proof.Spec
import proofs.«131226_j70806830842616_1_alg».proof.Proof.LibHostMax4
import proofs.«131226_j70806830842616_1_alg».proof.Proof.LibHostMaxMid

noncomputable section

open scoped BigOperators

namespace Cert.RefRead

open Idealize.ShloMosaic Idealize.ShloMosaic.ValueIdx Cert.ReferenceIdeal Cert.ReferenceIdeal.Read Cert.Attn HostMaxMid

/-! ### The three projections -/

/-- The left operand of the first projection is read at (i₀, i₁, k). -/
theorem lidx_v0 (i : S8x1024x512.Idx) (k : Fin 512) : lidx_main_v0 i k = ix3 (i 0) (i 1) k := by
  funext a; apply Fin.ext
  match a with | ⟨0, _⟩ => rfl | ⟨1, _⟩ => rfl | ⟨2, _⟩ => rfl
/-- The right operand of the first projection is read at (i₂, k). -/
theorem ridx_v0 (i : S8x1024x512.Idx) (k : Fin 512) : ridx_main_v0 i k = ix2 (i 2) k := by
  funext a; apply Fin.ext
  match a with | ⟨0, _⟩ => rfl | ⟨1, _⟩ => rfl
theorem lidx_v3 (i : S8x1024x512.Idx) (k : Fin 512) : lidx_main_v3 i k = ix3 (i 0) (i 1) k := by
  funext a; apply Fin.ext
  match a with | ⟨0, _⟩ => rfl | ⟨1, _⟩ => rfl | ⟨2, _⟩ => rfl
theorem ridx_v3 (i : S8x1024x512.Idx) (k : Fin 512) : ridx_main_v3 i k = ix2 (i 2) k := by
  funext a; apply Fin.ext
  match a with | ⟨0, _⟩ => rfl | ⟨1, _⟩ => rfl
theorem lidx_v6 (i : S8x1024x512.Idx) (k : Fin 512) : lidx_main_v6 i k = ix3 (i 0) (i 1) k := by
  funext a; apply Fin.ext
  match a with | ⟨0, _⟩ => rfl | ⟨1, _⟩ => rfl | ⟨2, _⟩ => rfl
theorem ridx_v6 (i : S8x1024x512.Idx) (k : Fin 512) : ridx_main_v6 i k = ix2 (i 2) k := by
  funext a; apply Fin.ext
  match a with | ⟨0, _⟩ => rfl | ⟨1, _⟩ => rfl
theorem lidx_v32 (i : S8x1024x512.Idx) (k : Fin 512) : lidx_main_v32 i k = ix3 (i 0) (i 1) k := by
  funext a; apply Fin.ext
  match a with | ⟨0, _⟩ => rfl | ⟨1, _⟩ => rfl | ⟨2, _⟩ => rfl
theorem ridx_v32 (i : S8x1024x512.Idx) (k : Fin 512) : ridx_main_v32 i k = ix2 (i 2) k := by
  funext a; apply Fin.ext
  match a with | ⟨0, _⟩ => rfl | ⟨1, _⟩ => rfl
/-- The bias, broadcast twice, is read at i₂. -/
theorem idx_v33_v34 (i : S8x1024x512.Idx) : idx_main_v33 (idx_main_v34 i) = ix1 (i 2) := by
  funext a; apply Fin.ext
  match a with | ⟨0, _⟩ => rfl

/-- The reference's three projections are the linear map of the specification. -/
theorem ref_linear_q (x : (⟨S8x1024x512, .f32⟩ : BufTy).Contents (Elt Ideal)) (w : (⟨S512x512, .f32⟩ : BufTy).Contents (Elt Ideal)) :
    val_main_v0 (F := Ideal) x w = linear x w := by
  funext i
  rw [val_main_v0_apply]
  show _ = ∑ k : Fin 512, x (ix3 (i 0) (i 1) k) * w (ix2 (i 2) k)
  refine Finset.sum_congr rfl fun k _ => ?_
  rw [lidx_v0, ridx_v0] <;> rfl
theorem ref_linear_k (x : (⟨S8x1024x512, .f32⟩ : BufTy).Contents (Elt Ideal)) (w : (⟨S512x512, .f32⟩ : BufTy).Contents (Elt Ideal)) :
    val_main_v3 (F := Ideal) x w = linear x w := by
  funext i
  rw [val_main_v3_apply]
  show _ = ∑ k : Fin 512, x (ix3 (i 0) (i 1) k) * w (ix2 (i 2) k)
  refine Finset.sum_congr rfl fun k _ => ?_
  rw [lidx_v3, ridx_v3] <;> rfl
theorem ref_linear_v (x : (⟨S8x1024x512, .f32⟩ : BufTy).Contents (Elt Ideal)) (w : (⟨S512x512, .f32⟩ : BufTy).Contents (Elt Ideal)) :
    val_main_v6 (F := Ideal) x w = linear x w := by
  funext i
  rw [val_main_v6_apply]
  show _ = ∑ k : Fin 512, x (ix3 (i 0) (i 1) k) * w (ix2 (i 2) k)
  refine Finset.sum_congr rfl fun k _ => ?_
  rw [lidx_v6, ridx_v6] <;> rfl

/-! ### Index arithmetic of the attention chain

Each stage reads its operands at an index built from the coordinates (b, h, i, j) of the result; these are the
closed forms. -/

theorem lidx_v9 (b h : Fin 8) (i j : Fin 1024) (k : Fin 64) :
    lidx_main_v9 (ix4 b h i j) k = ix4 b h i k := by
  funext a; apply Fin.ext
  match a with | ⟨0, _⟩ => rfl | ⟨1, _⟩ => rfl | ⟨2, _⟩ => rfl | ⟨3, _⟩ => rfl
theorem ridx_v9 (b h : Fin 8) (i j : Fin 1024) (k : Fin 64) :
    ridx_main_v9 (ix4 b h i j) k = ix4 b h j k := by
  funext a; apply Fin.ext
  match a with | ⟨0, _⟩ => rfl | ⟨1, _⟩ => rfl | ⟨2, _⟩ => rfl | ⟨3, _⟩ => rfl
theorem idx_v15_v16 (b h : Fin 8) (i j : Fin 1024) :
    idx_main_v15 (idx_main_v16 (ix4 b h i j)) = ix3 b h j := by
  funext a; apply Fin.ext
  match a with | ⟨0, _⟩ => rfl | ⟨1, _⟩ => rfl | ⟨2, _⟩ => rfl
theorem idx_v20_v21 (b h : Fin 8) (i j : Fin 1024) :
    idx_main_v20 (idx_main_v21 (ix4 b h i j)) = ix3 b h j := by
  funext a; apply Fin.ext
  match a with | ⟨0, _⟩ => rfl | ⟨1, _⟩ => rfl | ⟨2, _⟩ => rfl
theorem idx_v19 (b h : Fin 8) (j k : Fin 1024) :
    idx_main_v19 (ix3 b h j) k = ix4 b h k j := by
  funext a; apply Fin.ext
  match a with | ⟨0, _⟩ => rfl | ⟨1, _⟩ => rfl | ⟨2, _⟩ => rfl | ⟨3, _⟩ => rfl
theorem idx_v24_v27 (b h : Fin 8) (i j : Fin 1024) :
    idx_main_v24 (idx_main_v27 (ix4 b h i j)) = ix3 b h i := by
  funext a; apply Fin.ext
  match a with | ⟨0, _⟩ => rfl | ⟨1, _⟩ => rfl | ⟨2, _⟩ => rfl
theorem idx_v23 (b h : Fin 8) (i k : Fin 1024) :
    idx_main_v23 (ix3 b h i) k = ix4 b h i k := by
  funext a; apply Fin.ext
  match a with | ⟨0, _⟩ => rfl | ⟨1, _⟩ => rfl | ⟨2, _⟩ => rfl | ⟨3, _⟩ => rfl
theorem lidx_v29 (b h : Fin 8) (i : Fin 1024) (d : Fin 64) (k : Fin 1024) :
    lidx_main_v29 (ix4 b h i d) k = ix4 b h i k := by
  funext a; apply Fin.ext
  match a with | ⟨0, _⟩ => rfl | ⟨1, _⟩ => rfl | ⟨2, _⟩ => rfl | ⟨3, _⟩ => rfl
theorem ridx_v29 (b h : Fin 8) (i : Fin 1024) (d : Fin 64) (k : Fin 1024) :
    ridx_main_v29 (ix4 b h i d) k = ix4 b h k d := by
  funext a; apply Fin.ext
  match a with | ⟨0, _⟩ => rfl | ⟨1, _⟩ => rfl | ⟨2, _⟩ => rfl | ⟨3, _⟩ => rfl

/-! ### A maximum taken along the third axis of a rank-4 array -/

/-- The float word of −∞ denotes the bottom element of the extended reals. -/
theorem ofBits_neg_inf : Ideal.ofBits .f32 0xFF800000#32 = (⊥ : EReal) := by
  simp [Ideal.ofBits, Ideal.ieee]

/-- The reference's maximum over queries, at (b, h, j), is the supremum over queries of the scaled scores. -/
theorem v12_apply (x0 x1 : (⟨S8x1024x512, .f32⟩ : BufTy).Contents (Elt Ideal)) (x2 x3 : (⟨S512x512, .f32⟩ : BufTy).Contents (Elt Ideal)) (b h : Fin 8) (j : Fin 1024) :
    val_main_v12 (F := Ideal) x0 x1 x2 x3 (ix3 b h j)
      = (Finset.univ : Finset (Fin 1024)).sup fun i => val_main_v11 (F := Ideal) x0 x1 x2 x3 (ix4 b h i j) := by
  unfold val_main_v12
  exact reduce_ax2 (val_main_v11 (F := Ideal) x0 x1 x2 x3) (val_main_cst_0 (F := Ideal)) (fun _ => ofBits_neg_inf)
    Gen.reducesTo_S8x8x1024x1024_S8x8x1024_d2 (by decide) Gen.h_S_ b h j

/-! ### The stages of one head, bottom-up -/

/-- The scaled scores. -/
theorem ref_score (x0 x1 : (⟨S8x1024x512, .f32⟩ : BufTy).Contents (Elt Ideal)) (x2 x3 : (⟨S512x512, .f32⟩ : BufTy).Contents (Elt Ideal)) (b h : Fin 8) (i j : Fin 1024) :
    val_main_v11 (F := Ideal) x0 x1 x2 x3 (ix4 b h i j) = score (fun i d => val_main_v2 (F := Ideal) x0 x2 (ix4 b h i d)) (fun j d => val_main_v5 (F := Ideal) x1 x3 (ix4 b h j d)) i j := by
  rw [val_main_v11_apply, val_main_v9_apply, val_main_v10_apply, val_main_cst_apply, Ideal.mulf_def, Ideal.ofBits_def]
  show _ = (∑ d : Fin 64, val_main_v2 (F := Ideal) x0 x2 (ix4 b h i d) * val_main_v5 (F := Ideal) x1 x3 (ix4 b h j d)) * scale
  refine congrArg (· * scale) (Finset.sum_congr rfl fun k _ => ?_)
  rw [lidx_v9, ridx_v9] <;> rfl

/-- The column maximum, broadcast back over queries. -/
theorem ref_colMax (x0 x1 : (⟨S8x1024x512, .f32⟩ : BufTy).Contents (Elt Ideal)) (x2 x3 : (⟨S512x512, .f32⟩ : BufTy).Contents (Elt Ideal)) (b h : Fin 8) (i j : Fin 1024) :
    val_main_v16 (F := Ideal) x0 x1 x2 x3 (ix4 b h i j) = colMax (fun i d => val_main_v2 (F := Ideal) x0 x2 (ix4 b h i d)) (fun j d => val_main_v5 (F := Ideal) x1 x3 (ix4 b h j d)) j := by
  rw [val_main_v16_apply, val_main_v15_apply, idx_v15_v16, val_main_v14_apply, val_main_v13_apply, val_main_cst_1_apply,
    Ideal.maximumf_def, Ideal.ofBits_def, ofBits_neg_inf, v12_apply, max_eq_right bot_le]
  exact Finset.sup_congr rfl fun i' _ => ref_score x0 x1 x2 x3 b h i' j

/-- The shifted exponentials. -/
theorem ref_expo (x0 x1 : (⟨S8x1024x512, .f32⟩ : BufTy).Contents (Elt Ideal)) (x2 x3 : (⟨S512x512, .f32⟩ : BufTy).Contents (Elt Ideal)) (b h : Fin 8) (i j : Fin 1024) :
    val_main_v18 (F := Ideal) x0 x1 x2 x3 (ix4 b h i j) = expo (fun i d => val_main_v2 (F := Ideal) x0 x2 (ix4 b h i d)) (fun j d => val_main_v5 (F := Ideal) x1 x3 (ix4 b h j d)) i j := by
  rw [val_main_v18_apply, val_main_v17_apply, Ideal.hostUnary_exp_def, Ideal.subf_def, ref_score, ref_colMax]
  rfl

/-- The column sums of the exponentials, broadcast back over queries. -/
theorem ref_colSum (x0 x1 : (⟨S8x1024x512, .f32⟩ : BufTy).Contents (Elt Ideal)) (x2 x3 : (⟨S512x512, .f32⟩ : BufTy).Contents (Elt Ideal)) (b h : Fin 8) (i j : Fin 1024) :
    val_main_v21 (F := Ideal) x0 x1 x2 x3 (ix4 b h i j) = colSum (fun i d => val_main_v2 (F := Ideal) x0 x2 (ix4 b h i d)) (fun j d => val_main_v5 (F := Ideal) x1 x3 (ix4 b h j d)) j := by
  rw [val_main_v21_apply, val_main_v20_apply, idx_v20_v21, val_main_v19_apply, val_main_cst_2_apply, Ideal.ofBits_def,
    Ideal.ofBits_zero_f32, zero_add]
  refine Finset.sum_congr rfl fun k _ => ?_
  rw [idx_v19]
  exact ref_expo x0 x1 x2 x3 b h k j

/-- The softmax over queries. -/
theorem ref_soft (x0 x1 : (⟨S8x1024x512, .f32⟩ : BufTy).Contents (Elt Ideal)) (x2 x3 : (⟨S512x512, .f32⟩ : BufTy).Contents (Elt Ideal)) (b h : Fin 8) (i j : Fin 1024) :
    val_main_v22 (F := Ideal) x0 x1 x2 x3 (ix4 b h i j) = soft (fun i d => val_main_v2 (F := Ideal) x0 x2 (ix4 b h i d)) (fun j d => val_main_v5 (F := Ideal) x1 x3 (ix4 b h j d)) i j := by
  rw [val_main_v22_apply, Ideal.hostDivf_def, ref_expo, ref_colSum]
  rfl

/-- The key-axis sums of the softmax plus ε, broadcast back over keys. -/
theorem ref_rowDen (x0 x1 : (⟨S8x1024x512, .f32⟩ : BufTy).Contents (Elt Ideal)) (x2 x3 : (⟨S512x512, .f32⟩ : BufTy).Contents (Elt Ideal)) (b h : Fin 8) (i j : Fin 1024) :
    val_main_v27 (F := Ideal) x0 x1 x2 x3 (ix4 b h i j) = rowDen (fun i d => val_main_v2 (F := Ideal) x0 x2 (ix4 b h i d)) (fun j d => val_main_v5 (F := Ideal) x1 x3 (ix4 b h j d)) i := by
  rw [val_main_v27_apply, val_main_v26_apply, Ideal.addf_def, val_main_v24_apply, idx_v24_v27, val_main_v25_apply,
    val_main_cst_4_apply, val_main_v23_apply, val_main_cst_3_apply, Ideal.ofBits_def, Ideal.ofBits_def,
    Ideal.ofBits_zero_f32, zero_add]
  refine congrArg (· + eps) (Finset.sum_congr rfl fun k _ => ?_)
  rw [idx_v23]
  exact ref_soft x0 x1 x2 x3 b h i k

/-- The weights renormalised over keys. -/
theorem ref_weight (x0 x1 : (⟨S8x1024x512, .f32⟩ : BufTy).Contents (Elt Ideal)) (x2 x3 : (⟨S512x512, .f32⟩ : BufTy).Contents (Elt Ideal)) (b h : Fin 8) (i j : Fin 1024) :
    val_main_v28 (F := Ideal) x0 x1 x2 x3 (ix4 b h i j) = weight (fun i d => val_main_v2 (F := Ideal) x0 x2 (ix4 b h i d)) (fun j d => val_main_v5 (F := Ideal) x1 x3 (ix4 b h j d)) i j := by
  rw [val_main_v28_apply, Ideal.hostDivf_def, ref_soft, ref_rowDen]
  rfl

/-- The reference's chain from the three head-split arrays to the attention output is `attend`. -/
theorem ref_attend (x0 x1 : (⟨S8x1024x512, .f32⟩ : BufTy).Contents (Elt Ideal)) (x2 x3 x4 : (⟨S512x512, .f32⟩ : BufTy).Contents (Elt Ideal)) :
    val_main_v29 (F := Ideal) x0 x1 x2 x3 x4
      = attend (val_main_v2 (F := Ideal) x0 x2) (val_main_v5 (F := Ideal) x1 x3) (val_main_v8 (F := Ideal) x1 x4) := by
  funext n
  obtain ⟨b, h, i, d, rfl⟩ : ∃ (b h : Fin 8) (i : Fin 1024) (d : Fin 64), n = ix4 b h i d :=
    ⟨n 0, n 1, n 2, n 3, eq_ix4 n⟩
  rw [val_main_v29_apply]
  show _ = ∑ j : Fin 1024, weight (fun i d => val_main_v2 (F := Ideal) x0 x2 (ix4 b h i d)) (fun j d => val_main_v5 (F := Ideal) x1 x3 (ix4 b h j d)) i j * val_main_v8 (F := Ideal) x1 x4 (ix4 b h j d)
  refine Finset.sum_congr rfl fun k _ => ?_
  rw [lidx_v29, ridx_v29, ref_weight] <;> rfl

/-- The reference's last three stages are the linear map with a bias, of the merged heads. -/
theorem ref_out (x0 x1 : (⟨S8x1024x512, .f32⟩ : BufTy).Contents (Elt Ideal)) (x2 x3 x4 x5 : (⟨S512x512, .f32⟩ : BufTy).Contents (Elt Ideal))
    (x6 : (⟨S512, .f32⟩ : BufTy).Contents (Elt Ideal)) :
    val_main_v35 (F := Ideal) x0 x1 x2 x3 x4 x5 x6 = linearBias (val_main_v31 (F := Ideal) x0 x1 x2 x3 x4) x5 x6 := by
  funext i
  rw [val_main_v35_apply, val_main_v32_apply, val_main_v34_apply, val_main_v33_apply, Ideal.addf_def, idx_v33_v34]
  show _ = (∑ k : Fin 512, val_main_v31 (F := Ideal) x0 x1 x2 x3 x4 (ix3 (i 0) (i 1) k) * x5 (ix2 (i 2) k)) + x6 (ix1 (i 2))
  refine congrArg (· + x6 (ix1 (i 2))) (Finset.sum_congr rfl fun k _ => ?_)
  rw [lidx_v32, ridx_v32] <;> rfl

end Cert.RefRead

end
-- ==== Proof.Bridge.lean ====
/-
  The reference's result array is the kernel's result function of the same seven arguments.

  Both are: three linear maps, the split into heads, `attend`, the merge of heads, and the last linear map with its bias. The
  reference's stages were read against the specification one by one; the host's reshapes and transposes are the same operations in
  both programs; the only difference left is how the bias reaches the last sum — the reference broadcasts the 512-vector, the kernel
  reads it from a [1, 512] row — and a vector cast to one row, read at (0, e), is the vector at e.
-/
import proofs.«131226_j70806830842616_1_alg».proof.Proof.RefRead
import proofs.«131226_j70806830842616_1_alg».proof.Proof.KernelValue
import Idealize.ShloMosaic.Lib.ValueLayout

noncomputable section

open scoped BigOperators

namespace Cert.Bridge

open Idealize.ShloMosaic Idealize.ShloMosaic.ValueIdx Cert.Attn Cert.KernelValue
open Cert.ReferenceIdeal.Read

/-- The linear map with a bias vector is the kernel's third launch's function at the vector cast to one row. -/
theorem linearBias_eq (y : (⟨3, ![8, 1024, 512]⟩ : Shape).Idx → EReal) (w : (⟨2, ![512, 512]⟩ : Shape).Idx → EReal)
    (bo : (⟨1, ![512]⟩ : Shape).Idx → EReal) (h : (⟨1, ![512]⟩ : Shape).ShapeCasts ⟨2, ![1, 512]⟩) :
    linearBias y w bo = Cert.OutArray.outOf y w (shapeCast ⟨2, ![1, 512]⟩ bo h) := by
  funext i
  unfold linearBias Cert.OutArray.outOf
  rw [shapeCast_a_1a_apply bo h (0 : Fin 1) (i 2)]

/-- The reference's head-split projections are the split of the specification's linear maps. -/
theorem ref_q (x0 : (⟨3, ![8, 1024, 512]⟩ : Shape).Idx → EReal) (x2 : (⟨2, ![512, 512]⟩ : Shape).Idx → EReal) :
    val_main_v2 (F := Ideal) x0 x2 = splitHeads (linear x0 x2) := by
  unfold val_main_v2 val_main_v1
  rw [Cert.RefRead.ref_linear_q]
  rfl
theorem ref_k (x1 : (⟨3, ![8, 1024, 512]⟩ : Shape).Idx → EReal) (x3 : (⟨2, ![512, 512]⟩ : Shape).Idx → EReal) :
    val_main_v5 (F := Ideal) x1 x3 = splitHeads (linear x1 x3) := by
  unfold val_main_v5 val_main_v4
  rw [Cert.RefRead.ref_linear_k]
  rfl
theorem ref_v (x1 : (⟨3, ![8, 1024, 512]⟩ : Shape).Idx → EReal) (x4 : (⟨2, ![512, 512]⟩ : Shape).Idx → EReal) :
    val_main_v8 (F := Ideal) x1 x4 = splitHeads (linear x1 x4) := by
  unfold val_main_v8 val_main_v7
  rw [Cert.RefRead.ref_linear_v]
  rfl

/-- The reference's merged heads are the merge of `attend` of the three split projections. -/
theorem ref_merged (x0 x1 : (⟨3, ![8, 1024, 512]⟩ : Shape).Idx → EReal) (x2 x3 x4 : (⟨2, ![512, 512]⟩ : Shape).Idx → EReal) :
    val_main_v31 (F := Ideal) x0 x1 x2 x3 x4
      = mergeHeads (attend (splitHeads (linear x0 x2)) (splitHeads (linear x1 x3)) (splitHeads (linear x1 x4))) := by
  unfold val_main_v31 val_main_v30
  rw [Cert.RefRead.ref_attend, ref_q, ref_k, ref_v]
  rfl

/-- THE TWO RESULTS ARE ONE FUNCTION of the seven arguments. -/
theorem ref_eq_result (x0 x1 : (⟨3, ![8, 1024, 512]⟩ : Shape).Idx → EReal) (x2 x3 x4 x5 : (⟨2, ![512, 512]⟩ : Shape).Idx → EReal)
    (x6 : (⟨1, ![512]⟩ : Shape).Idx → EReal) :
    val_main_v35 (F := Ideal) x0 x1 x2 x3 x4 x5 x6 = result x0 x1 x2 x3 x4 x5 x6 := by
  rw [Cert.RefRead.ref_out, ref_merged]
  exact linearBias_eq _ _ _ _

end Cert.Bridge

end
-- ==== Proof.lean ====
/-
  The certificate: the word-level kernel and its idealization run to the end with their arguments intact, the reference does too,
  and the idealized kernel and the idealized reference, started from memories that agree on the seven arguments, return the same
  array of extended reals.

  The programs. The kernel is three launches — the query / key / value projections, attention per (batch, head) with the softmax
  taken over the QUERY axis and renormalised over the keys, and the output projection with its bias — joined by host reshapes and
  transposes that split the 512 features into 8 heads of 64 and merge them back. The reference is the same computation written as
  whole-array operations. Over the extended reals a change of float format is the identity and a matrix product is a plain finite sum, so
  the two programs compute, entry by entry, the same sums, suprema, exponentials and quotients in the same order of operations; the
  only rearrangement is in how each program lays its arrays out, and sums and suprema over a finite index set do not depend on that.
  No law that needs finiteness is used, so the precondition is never opened.

  The modules. `Spec` states the mathematics once. `KernelRun` reads the result buffer off the kernel's final state; `ProjArray`,
  `AttnArray` and `OutArray` turn each launch's blocks into one whole-array function (using `Payloads`: each body's stored value
  read at an index); `KernelValue` composes them through the host operations into `result`, a function of the seven arguments.
  `RefRead` reads the reference's stages against the specification and `Bridge` concludes that its result is `result` too.
  The three frames are the generated ones (the reference's is its generated run with the value dropped); the idealization rewrote
  nothing, so `preserves` is trivial.
-/
import proofs.«131226_j70806830842616_1_alg».proof.Defs
import proofs.«131226_j70806830842616_1_alg».proof.Proof.Gen.Kernel
import proofs.«131226_j70806830842616_1_alg».proof.Proof.Gen.Kernel.Skeleton
import proofs.«131226_j70806830842616_1_alg».proof.Proof.Gen.Kernel.Launch
import proofs.«131226_j70806830842616_1_alg».proof.Proof.Gen.Kernel.Points
import proofs.«131226_j70806830842616_1_alg».proof.Proof.Gen.Kernel.Frame
import proofs.«131226_j70806830842616_1_alg».proof.Proof.Gen.KernelIdeal
import proofs.«131226_j70806830842616_1_alg».proof.Proof.Gen.KernelIdeal.Skeleton
import proofs.«131226_j70806830842616_1_alg».proof.Proof.Gen.KernelIdeal.Launch
import proofs.«131226_j70806830842616_1_alg».proof.Proof.Gen.KernelIdeal.Points
import proofs.«131226_j70806830842616_1_alg».proof.Proof.Gen.KernelIdeal.Frame
import proofs.«131226_j70806830842616_1_alg».proof.Proof.Gen.ReferenceIdeal
import proofs.«131226_j70806830842616_1_alg».proof.Proof.Gen.Pre_finite_inputs
import proofs.«131226_j70806830842616_1_alg».proof.Proof.Gen.ReferenceIdeal.Run
import proofs.«131226_j70806830842616_1_alg».proof.Proof.Gen.ReferenceIdeal.Read
import proofs.«131226_j70806830842616_1_alg».proof.Proof.KernelRun
import proofs.«131226_j70806830842616_1_alg».proof.Proof.KernelValue
import proofs.«131226_j70806830842616_1_alg».proof.Proof.Bridge
import Idealize.ShloMosaic.Adequacy
import Idealize.ShloMosaic.Init

noncomputable section

namespace Cert.Proof

open Idealize.ShloMosaic Idealize.SL.Sem

/-- The word-level kernel runs and keeps its arguments: the generated frame. -/
theorem frame_k : Cert.frame_Kernel := fun m ρ _ => Cert.Kernel.Gen.frame m ρ
/-- The idealized kernel runs and keeps its arguments: the generated frame. -/
theorem frame_ki : Cert.frame_KernelIdeal := fun m ρ _ => Cert.KernelIdeal.Gen.frame m ρ
/-- The idealized reference runs and keeps its arguments: its generated run, the value dropped. -/
theorem frame_ri : Cert.frame_ReferenceIdeal := fun m ρ _ =>
  (θ_run Cert.ReferenceIdeal.defs _ _).mono (fun _ h c => (h c).2) (Cert.ReferenceIdeal.Value.run (F := Ideal) m ρ)

/-- Both idealized programs end with `KernelValue.result` of the seven arguments at their result: the kernel by its run read
    through its segments, the reference by its generated run read against the specification. -/
theorem algebraic : Cert.algebraic_KernelIdeal_ReferenceIdeal := by
  intro m ρ m' ρ' _ hagree
  refine ⟨fun c => Cert.KernelValue.result
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5))
      (m ((c.tc : Thread Cert.KernelIdeal.nD Cert.KernelIdeal.τ).loc Cert.KernelIdeal.main_arg6)), ?_, ?_⟩
  · exact (θ_run Cert.KernelIdeal.defs _ _).mono
      (fun r h c => ⟨(h c).1.trans (Cert.KernelValue.value m ρ c), (h c).2⟩) (Cert.KernelRun.run (F := Ideal) m ρ)
  · refine (θ_run Cert.ReferenceIdeal.defs _ _).mono (fun r h c => ⟨?_, (h c).2⟩)
      (Cert.ReferenceIdeal.Value.run (F := Ideal) m' ρ')
    rw [(h c).1, Cert.ReferenceIdeal.Read.val_main_v35_eq, (hagree c).1, (hagree c).2.1, (hagree c).2.2.1, (hagree c).2.2.2.1,
      (hagree c).2.2.2.2.1, (hagree c).2.2.2.2.2.1, (hagree c).2.2.2.2.2.2]
    exact Cert.Bridge.ref_eq_result _ _ _ _ _ _ _

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
